-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S16x40 .f32) (main_arg10 : FVec F S40 .f32) (main_v33 : IVec S_ 1) : IVec S_ 1 :=
  let main_v34 : FVec F S16x40 .f32 := Host.absf main_arg9
  let main_cst_12 : FVec F S_ .f32 := constant S_ .f32 0x7F800000#32
  let main_v35 : FVec F S16x40 .f32 := broadcastInDim S16x40 ![] bcast_S_S16x40 main_cst_12
  let main_v36 : IVec S16x40 1 := cmpf .olt main_v34 main_v35
  let main_c_13 : IVec S_ 1 := constantI S_ 1 1#1
  let main_v37 : IVec S_ 1 := (fun x v => Host.reduce IntOp.andi x v reducesTo_S16x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S64 .f32) (main_arg7 : FVec F S64x16 .f32) (main_arg8 : FVec F S16 .f32) (main_arg9 : FVec F S16x40 .f32) (main_arg10 : FVec F S40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x64 .f32) (main_arg6 : FVec F S64 .f32) (main_arg7 : FVec F S64x16 .f32) (main_arg8 : FVec F S16 .f32) (main_arg9 : FVec F S16x40 .f32) (main_arg10 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x40 : Shape := ⟨2, ![16, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩
abbrev S100000x16 : Shape := ⟨2, ![100000, 16]⟩
abbrev S2000x16 : Shape := ⟨2, ![2000, 16]⟩
abbrev S1600000x16 : Shape := ⟨2, ![1600000, 16]⟩
abbrev S1x16 : Shape := ⟨2, ![1, 16]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 95
  | .vmem => 56
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16x40, .f32⟩
  | .hbm, ⟨10, _⟩ => ⟨S40, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x16, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x16, .f32⟩
  | .hbm, ⟨73, _⟩ => ⟨S_, .f32⟩
  | .hbm, ⟨74, _⟩ => ⟨S100000x16, .f32⟩
  | .hbm, ⟨75, _⟩ => ⟨S1600000x1, .i32⟩
  | .hbm, ⟨76, _⟩ => ⟨S100000x16, .f32⟩
  | .hbm, ⟨77, _⟩ => ⟨S1x16, .f32⟩
  | .hbm, ⟨78, _⟩ => ⟨S100000x16, .f32⟩
  | .hbm, ⟨79, _⟩ => ⟨S100000x40, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x40, .f32⟩
  | .hbm, ⟨89, _⟩ => ⟨S_, .f32⟩
  | .hbm, ⟨90, _⟩ => ⟨S100000x40, .f32⟩
  | .hbm, ⟨91, _⟩ => ⟨S1600000x1, .i32⟩
  | .hbm, ⟨92, _⟩ => ⟨S100000x40, .f32⟩
  | .hbm, ⟨93, _⟩ => ⟨S1x40, .f32⟩
  | .hbm, ⟨94, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x1, .f32⟩
  | .local _ .vmem, ⟨31, _⟩ => ⟨S2000x1, .f32⟩
  | .local _ .vmem, ⟨32, _⟩ => ⟨S64x16, .f32⟩
  | .local _ .vmem, ⟨33, _⟩ => ⟨S2000x16, .f32⟩
  | .local _ .vmem, ⟨34, _⟩ => ⟨S2000x16, .f32⟩
  | .local _ .vmem, ⟨35, _⟩ => ⟨S2000x16, .f32⟩
  | .local _ .vmem, ⟨36, _⟩ => ⟨S2000x16, .f32⟩
  | .local _ .vmem, ⟨37, _⟩ => ⟨S2000x1, .f32⟩
  | .local _ .vmem, ⟨38, _⟩ => ⟨S2000x1, .f32⟩
  | .local _ .vmem, ⟨39, _⟩ => ⟨S1x16, .f32⟩
  | .local _ .vmem, ⟨40, _⟩ => ⟨S2000x16, .f32⟩
  | .local _ .vmem, ⟨41, _⟩ => ⟨S2000x16, .f32⟩
  | .local _ .vmem, ⟨42, _⟩ => ⟨S2000x16, .f32⟩
  | .local _ .vmem, ⟨43, _⟩ => ⟨S2000x16, .f32⟩
  | .local _ .vmem, ⟨44, _⟩ => ⟨S2000x1, .f32⟩
  | .local _ .vmem, ⟨45, _⟩ => ⟨S2000x1, .f32⟩
  | .local _ .vmem, ⟨46, _⟩ => ⟨S16x40, .f32⟩
  | .local _ .vmem, ⟨47, _⟩ => ⟨S2000x40, .f32⟩
  | .local _ .vmem, ⟨48, _⟩ => ⟨S2000x40, .f32⟩
  | .local _ .vmem, ⟨49, _⟩ => ⟨S2000x40, .f32⟩
  | .local _ .vmem, ⟨50, _⟩ => ⟨S2000x40, .f32⟩
  | .local _ .vmem, ⟨51, _⟩ => ⟨S2000x1, .f32⟩
  | .local _ .vmem, ⟨52, _⟩ => ⟨S2000x1, .f32⟩
  | .local _ .vmem, ⟨53, _⟩ => ⟨S1x40, .f32⟩
  | .local _ .vmem, ⟨54, _⟩ => ⟨S2000x40, .f32⟩
  | .local _ .vmem, ⟨55, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x40 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x40 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x16_S2000x16_1_0_0_1_n_n_wf : DotDims.WF S2000x64 S64x16 S2000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S2000x16_S16x40_S2000x40_1_0_0_1_n_n_wf : DotDims.WF S2000x16 S16x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x16.size a ≤ S64x16.size a
  hwx4_2 : ∀ i : grid4.Coords, EltTy.bits .f32 = 32 ∨ (Rect.block (s := S64x16) S64x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x16.size a ≤ S100000x16.size a
  hwx4_3 : ∀ i : grid4.Coords, EltTy.bits .f32 = 32 ∨ (Rect.block (s := S100000x16) S2000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x16.size a ≤ S100000x16.size a
  hwx5_0 : ∀ i : grid5.Coords, EltTy.bits .f32 = 32 ∨ (Rect.block (s := S100000x16) S2000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x16.size a ≤ S100000x16.size a
  hwx5_3 : ∀ i : grid5.Coords, EltTy.bits .f32 = 32 ∨ (Rect.block (s := S100000x16) S2000x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x16.size a ≤ S100000x16.size a
  hwx6_0 : ∀ i : grid6.Coords, EltTy.bits .f32 = 32 ∨ (Rect.block (s := S100000x16) S2000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .f32 = 32 ∨ (Rect.block (s := S100000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x40.size a ≤ S16x40.size a
  hwx6_2 : ∀ i : grid6.Coords, EltTy.bits .f32 = 32 ∨ (Rect.block (s := S16x40) S16x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x40.size a ≤ S100000x40.size a
  hwx6_3 : ∀ i : grid6.Coords, EltTy.bits .f32 = 32 ∨ (Rect.block (s := S100000x40) S2000x40.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S100000x40.size a
  hwx7_0 : ∀ i : grid7.Coords, EltTy.bits .f32 = 32 ∨ (Rect.block (s := S100000x40) S2000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S100000x1.size a
  hwx7_1 : ∀ i : grid7.Coords, EltTy.bits .f32 = 32 ∨ (Rect.block (s := S100000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x40.size a ≤ S1x40.size a
  hwx7_2 : ∀ i : grid7.Coords, EltTy.bits .f32 = 32 ∨ (Rect.block (s := S1x40) S1x40.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x40.size a ≤ S100000x40.size a
  hwx7_3 : ∀ i : grid7.Coords, EltTy.bits .f32 = 32 ∨ (Rect.block (s := S100000x40) S2000x40.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S2000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S2000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S2000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v53) S2000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S16x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v54) S2000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v64) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v65) S1x40.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v66) S2000x40.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x40 : Shape := ⟨2, ![16, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 124
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16x40, .f32⟩
  | .hbm, ⟨10, _⟩ => ⟨S40, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S100000x256, .f32⟩
  | .hbm, ⟨32, _⟩ => ⟨S100000x256, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x16, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x16, .f32⟩
  | .hbm, ⟨91, _⟩ => ⟨S_, .f32⟩
  | .hbm, ⟨92, _⟩ => ⟨S100000x16, .f32⟩
  | .hbm, ⟨93, _⟩ => ⟨S1600000x1, .i32⟩
  | .hbm, ⟨94, _⟩ => ⟨S100000x16, .f32⟩
  | .hbm, ⟨95, _⟩ => ⟨S100000x16, .f32⟩
  | .hbm, ⟨96, _⟩ => ⟨S100000x16, .f32⟩
  | .hbm, ⟨97, _⟩ => ⟨S1x16, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000x16, .f32⟩
  | .hbm, ⟨102, _⟩ => ⟨S100000x16, .f32⟩
  | .hbm, ⟨103, _⟩ => ⟨S100000x16, .f32⟩
  | .hbm, ⟨104, _⟩ => ⟨S100000x16, .f32⟩
  | .hbm, ⟨105, _⟩ => ⟨S100000x40, .f32⟩
  | .hbm, ⟨106, _⟩ => ⟨S_, .i32⟩
  | .hbm, ⟨107, _⟩ => ⟨S1600000, .i32⟩
  | .hbm, ⟨108, _⟩ => ⟨S1600000, .i1⟩
  | .hbm, ⟨109, _⟩ => ⟨S_, .i32⟩
  | .hbm, ⟨110, _⟩ => ⟨S1600000, .i32⟩
  | .hbm, ⟨111, _⟩ => ⟨S1600000, .i32⟩
  | .hbm, ⟨112, _⟩ => ⟨S1600000, .i32⟩
  | .hbm, ⟨113, _⟩ => ⟨S1600000x1, .i32⟩
  | .hbm, ⟨114, _⟩ => ⟨S1600000x40, .f32⟩
  | .hbm, ⟨115, _⟩ => ⟨S_, .f32⟩
  | .hbm, ⟨116, _⟩ => ⟨S100000x40, .f32⟩
  | .hbm, ⟨117, _⟩ => ⟨S1600000x1, .i32⟩
  | .hbm, ⟨118, _⟩ => ⟨S100000x40, .f32⟩
  | .hbm, ⟨119, _⟩ => ⟨S100000x40, .f32⟩
  | .hbm, ⟨120, _⟩ => ⟨S100000x40, .f32⟩
  | .hbm, ⟨121, _⟩ => ⟨S1x40, .f32⟩
  | .hbm, ⟨122, _⟩ => ⟨S100000x40, .f32⟩
  | .hbm, ⟨123, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_cst : Ref sig .tc := ⟨.hbm, 100, rfl⟩
abbrev main_call2_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_12 : Ref sig .tc := ⟨.hbm, 106, rfl⟩
abbrev main_v75 : Ref sig .tc := ⟨.hbm, 107, rfl⟩
abbrev main_v76 : Ref sig .tc := ⟨.hbm, 108, rfl⟩
abbrev main_c_13 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x40_S100000x40_1_0_0_1_n_n_wf : DotDims.WF S100000x16 S16x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result named.

  @main is eight pipelined regions among stretches of host operations. Its run is a fold of buffer contents from the
  launch memory: a host stretch applies its operations, a region replaces its arrays by what its write-backs leave.
  Every weakly fair execution terminates with every buffer of @main at the last contents of that fold; here that is
  stated for the result buffer and the eleven arguments (the arguments walk back through the fold to the launch
  memory, no operation and no region writing one).
-/
import proofs.«162165_j5927054869163_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last contents of
    the fold (`W13`) and every argument as launched. -/
theorem run : θ_run defs (onTc (τ := τ) (main (F := F))) ⟨m, fun _ => 0, ρ⟩ (fun r => ∀ c : Dev nD,
      r.2.mem ((c.tc : Thread nD τ).loc main_v66) = W13 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v66 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.RunValue

end
-- ==== Proof.FoldKept.lean ====
/-
  What the kernel's run never writes again.

  The run of the idealized kernel is a fold of buffer contents through thirteen segments: five stretches of host
  operations and eight pipelined regions. The first stretch computes the two degree columns (the reciprocal square
  roots of the clamped out- and in-degrees, spread into columns) exactly as the reference does, from the same edge
  lists. After that no host operation writes a degree column or an argument, and a region only reads them (through an
  input window) or does not touch them. So at every later boundary of the fold the degree columns are the reference's
  and the arguments are as launched.
-/
import proofs.«162165_j5927054869163_1_alg».proof.Proof.Gen.KernelIdeal.Frame
import proofs.«162165_j5927054869163_1_alg».proof.Proof.Gen.ReferenceIdeal.Read

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What each host stretch writes -/

/-- The buffers the operations of host stretch 0 write. -/
abbrev written0 : List (Ref sig .tc) := [main_cst, main_v0, main_cst_0, main_v1, main_v2, main_v3, main_cst_1, main_v4, main_v5, main_cst_2, main_v6, main_v7, main_v8, main_cst_3, main_v9, main_v10, main_v11, main_v12, main_v13, main_v14]
theorem writes0 : (hostOps0 : List (HloOp τ sig (Elt Ideal))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers the operations of host stretch 1 write. -/
abbrev written1 : List (Ref sig .tc) := [main_c, main_v16, main_v17, main_c_4, main_v18, main_v19, main_v20, main_v21, main_v22, main_cst_5, main_v23, main_v24, main_v25, main_v26]
theorem writes1 : (hostOps1 : List (HloOp τ sig (Elt Ideal))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers the operations of host stretch 3 write. -/
abbrev written3 : List (Ref sig .tc) := [main_c_6, main_v29, main_v30, main_c_7, main_v31, main_v32, main_v33, main_v34, main_v35, main_cst_8, main_v36, main_v37, main_v38, main_v39]
theorem writes3 : (hostOps3 : List (HloOp τ sig (Elt Ideal))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers the operations of host stretch 5 write. -/
abbrev written5 : List (Ref sig .tc) := [main_c_9, main_v42, main_v43, main_c_10, main_v44, main_v45, main_v46, main_v47, main_v48, main_cst_11, main_v49, main_v50, main_v51, main_v52]
theorem writes5 : (hostOps5 : List (HloOp τ sig (Elt Ideal))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers the operations of host stretch 7 write. -/
abbrev written7 : List (Ref sig .tc) := [main_c_12, main_v55, main_v56, main_c_13, main_v57, main_v58, main_v59, main_v60, main_v61, main_cst_14, main_v62, main_v63, main_v64, main_v65]
theorem writes7 : (hostOps7 : List (HloOp τ sig (Elt Ideal))).Forall fun op => op.writes ⊆ (written7.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! ## What is kept -/

/-- The degree columns are the reference's (of the same edge lists) and the arguments are as launched. -/
structure Kept (c : Dev nD) (W : Valuation τ sig (Elt Ideal)) : Prop where
  ns : W (Proc.devRef .tc main_v12) = Cert.ReferenceIdeal.Read.val_main_v12 (F := Ideal) (m ((c.tc : Thread nD τ).loc main_arg1))
  nd : W (Proc.devRef .tc main_v14) = Cert.ReferenceIdeal.Read.val_main_v14 (F := Ideal) (m ((c.tc : Thread nD τ).loc main_arg2))
  a0 : W (Proc.devRef .tc main_arg0) = m ((c.tc : Thread nD τ).loc main_arg0)
  a1 : W (Proc.devRef .tc main_arg1) = m ((c.tc : Thread nD τ).loc main_arg1)
  a2 : W (Proc.devRef .tc main_arg2) = m ((c.tc : Thread nD τ).loc main_arg2)
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)
  a6 : W (Proc.devRef .tc main_arg6) = m ((c.tc : Thread nD τ).loc main_arg6)
  a7 : W (Proc.devRef .tc main_arg7) = m ((c.tc : Thread nD τ).loc main_arg7)
  a8 : W (Proc.devRef .tc main_arg8) = m ((c.tc : Thread nD τ).loc main_arg8)
  a9 : W (Proc.devRef .tc main_arg9) = m ((c.tc : Thread nD τ).loc main_arg9)
  a10 : W (Proc.devRef .tc main_arg10) = m ((c.tc : Thread nD τ).loc main_arg10)

/-- The source-degree column after the first stretch is the reference's, of the same source indices. -/
theorem ns1 (c : Dev nD) : W1 m ρ c (Proc.devRef .tc main_v12) = Cert.ReferenceIdeal.Read.val_main_v12 (F := Ideal) (m ((c.tc : Thread nD τ).loc main_arg1)) := by
  show StableHlo.after hostOps0 (W0 m ρ c) (Proc.devRef .tc main_v12) = _
  after_results
  rfl

/-- The destination-degree column after the first stretch is the reference's, of the same destination indices. -/
theorem nd1 (c : Dev nD) : W1 m ρ c (Proc.devRef .tc main_v14) = Cert.ReferenceIdeal.Read.val_main_v14 (F := Ideal) (m ((c.tc : Thread nD τ).loc main_arg2)) := by
  show StableHlo.after hostOps0 (W0 m ρ c) (Proc.devRef .tc main_v14) = _
  after_results
  rfl

/-- After host stretch 0. -/
theorem kept1 (c : Dev nD) : Kept m c (W1 m ρ c) where
  ns := ns1 m ρ c
  nd := nd1 m ρ c
  a0 := StableHlo.after_of_writes_sub hostOps0 _ writes0 (by decide)
  a1 := StableHlo.after_of_writes_sub hostOps0 _ writes0 (by decide)
  a2 := StableHlo.after_of_writes_sub hostOps0 _ writes0 (by decide)
  a3 := StableHlo.after_of_writes_sub hostOps0 _ writes0 (by decide)
  a4 := StableHlo.after_of_writes_sub hostOps0 _ writes0 (by decide)
  a5 := StableHlo.after_of_writes_sub hostOps0 _ writes0 (by decide)
  a6 := StableHlo.after_of_writes_sub hostOps0 _ writes0 (by decide)
  a7 := StableHlo.after_of_writes_sub hostOps0 _ writes0 (by decide)
  a8 := StableHlo.after_of_writes_sub hostOps0 _ writes0 (by decide)
  a9 := StableHlo.after_of_writes_sub hostOps0 _ writes0 (by decide)
  a10 := StableHlo.after_of_writes_sub hostOps0 _ writes0 (by decide)

/-- After region 0. -/
theorem kept2 (c : Dev nD) : Kept m c (W2 m ρ c) where
  ns := (W2_arr m ρ c 1).trans (((dat0 (V1 m ρ) c).arrAt_in 1 rfl _).trans ((A_eq0 (V1 m ρ) c 1).trans (kept1 m ρ c).ns))
  nd := (W2_of_ne m ρ c main_v14 (by decide)).trans (kept1 m ρ c).nd
  a0 := (W2_arr m ρ c 0).trans (((dat0 (V1 m ρ) c).arrAt_in 0 rfl _).trans ((A_eq0 (V1 m ρ) c 0).trans (kept1 m ρ c).a0))
  a1 := (W2_of_ne m ρ c main_arg1 (by decide)).trans (kept1 m ρ c).a1
  a2 := (W2_of_ne m ρ c main_arg2 (by decide)).trans (kept1 m ρ c).a2
  a3 := (W2_arr m ρ c 2).trans (((dat0 (V1 m ρ) c).arrAt_in 2 rfl _).trans ((A_eq0 (V1 m ρ) c 2).trans (kept1 m ρ c).a3))
  a4 := (W2_of_ne m ρ c main_arg4 (by decide)).trans (kept1 m ρ c).a4
  a5 := (W2_of_ne m ρ c main_arg5 (by decide)).trans (kept1 m ρ c).a5
  a6 := (W2_of_ne m ρ c main_arg6 (by decide)).trans (kept1 m ρ c).a6
  a7 := (W2_of_ne m ρ c main_arg7 (by decide)).trans (kept1 m ρ c).a7
  a8 := (W2_of_ne m ρ c main_arg8 (by decide)).trans (kept1 m ρ c).a8
  a9 := (W2_of_ne m ρ c main_arg9 (by decide)).trans (kept1 m ρ c).a9
  a10 := (W2_of_ne m ρ c main_arg10 (by decide)).trans (kept1 m ρ c).a10

/-- After host stretch 1. -/
theorem kept3 (c : Dev nD) : Kept m c (W3 m ρ c) where
  ns := (StableHlo.after_of_writes_sub hostOps1 _ writes1 (by decide)).trans (kept2 m ρ c).ns
  nd := (StableHlo.after_of_writes_sub hostOps1 _ writes1 (by decide)).trans (kept2 m ρ c).nd
  a0 := (StableHlo.after_of_writes_sub hostOps1 _ writes1 (by decide)).trans (kept2 m ρ c).a0
  a1 := (StableHlo.after_of_writes_sub hostOps1 _ writes1 (by decide)).trans (kept2 m ρ c).a1
  a2 := (StableHlo.after_of_writes_sub hostOps1 _ writes1 (by decide)).trans (kept2 m ρ c).a2
  a3 := (StableHlo.after_of_writes_sub hostOps1 _ writes1 (by decide)).trans (kept2 m ρ c).a3
  a4 := (StableHlo.after_of_writes_sub hostOps1 _ writes1 (by decide)).trans (kept2 m ρ c).a4
  a5 := (StableHlo.after_of_writes_sub hostOps1 _ writes1 (by decide)).trans (kept2 m ρ c).a5
  a6 := (StableHlo.after_of_writes_sub hostOps1 _ writes1 (by decide)).trans (kept2 m ρ c).a6
  a7 := (StableHlo.after_of_writes_sub hostOps1 _ writes1 (by decide)).trans (kept2 m ρ c).a7
  a8 := (StableHlo.after_of_writes_sub hostOps1 _ writes1 (by decide)).trans (kept2 m ρ c).a8
  a9 := (StableHlo.after_of_writes_sub hostOps1 _ writes1 (by decide)).trans (kept2 m ρ c).a9
  a10 := (StableHlo.after_of_writes_sub hostOps1 _ writes1 (by decide)).trans (kept2 m ρ c).a10

/-- After region 1. -/
theorem kept4 (c : Dev nD) : Kept m c (W4 m ρ c) where
  ns := (W4_of_ne m ρ c main_v12 (by decide)).trans (kept3 m ρ c).ns
  nd := (W4_arr m ρ c 1).trans (((dat1 (V3 m ρ) c).arrAt_in 1 rfl _).trans ((A_eq1 (V3 m ρ) c 1).trans (kept3 m ρ c).nd))
  a0 := (W4_of_ne m ρ c main_arg0 (by decide)).trans (kept3 m ρ c).a0
  a1 := (W4_of_ne m ρ c main_arg1 (by decide)).trans (kept3 m ρ c).a1
  a2 := (W4_of_ne m ρ c main_arg2 (by decide)).trans (kept3 m ρ c).a2
  a3 := (W4_of_ne m ρ c main_arg3 (by decide)).trans (kept3 m ρ c).a3
  a4 := (W4_of_ne m ρ c main_arg4 (by decide)).trans (kept3 m ρ c).a4
  a5 := (W4_of_ne m ρ c main_arg5 (by decide)).trans (kept3 m ρ c).a5
  a6 := (W4_of_ne m ρ c main_arg6 (by decide)).trans (kept3 m ρ c).a6
  a7 := (W4_of_ne m ρ c main_arg7 (by decide)).trans (kept3 m ρ c).a7
  a8 := (W4_of_ne m ρ c main_arg8 (by decide)).trans (kept3 m ρ c).a8
  a9 := (W4_of_ne m ρ c main_arg9 (by decide)).trans (kept3 m ρ c).a9
  a10 := (W4_of_ne m ρ c main_arg10 (by decide)).trans (kept3 m ρ c).a10

/-- After region 2. -/
theorem kept5 (c : Dev nD) : Kept m c (W5 m ρ c) where
  ns := (W5_arr m ρ c 1).trans (((dat2 (V4 m ρ) c).arrAt_in 1 rfl _).trans ((A_eq2 (V4 m ρ) c 1).trans (kept4 m ρ c).ns))
  nd := (W5_of_ne m ρ c main_v14 (by decide)).trans (kept4 m ρ c).nd
  a0 := (W5_of_ne m ρ c main_arg0 (by decide)).trans (kept4 m ρ c).a0
  a1 := (W5_of_ne m ρ c main_arg1 (by decide)).trans (kept4 m ρ c).a1
  a2 := (W5_of_ne m ρ c main_arg2 (by decide)).trans (kept4 m ρ c).a2
  a3 := (W5_of_ne m ρ c main_arg3 (by decide)).trans (kept4 m ρ c).a3
  a4 := (W5_of_ne m ρ c main_arg4 (by decide)).trans (kept4 m ρ c).a4
  a5 := (W5_arr m ρ c 2).trans (((dat2 (V4 m ρ) c).arrAt_in 2 rfl _).trans ((A_eq2 (V4 m ρ) c 2).trans (kept4 m ρ c).a5))
  a6 := (W5_of_ne m ρ c main_arg6 (by decide)).trans (kept4 m ρ c).a6
  a7 := (W5_of_ne m ρ c main_arg7 (by decide)).trans (kept4 m ρ c).a7
  a8 := (W5_of_ne m ρ c main_arg8 (by decide)).trans (kept4 m ρ c).a8
  a9 := (W5_of_ne m ρ c main_arg9 (by decide)).trans (kept4 m ρ c).a9
  a10 := (W5_of_ne m ρ c main_arg10 (by decide)).trans (kept4 m ρ c).a10

/-- After host stretch 3. -/
theorem kept6 (c : Dev nD) : Kept m c (W6 m ρ c) where
  ns := (StableHlo.after_of_writes_sub hostOps3 _ writes3 (by decide)).trans (kept5 m ρ c).ns
  nd := (StableHlo.after_of_writes_sub hostOps3 _ writes3 (by decide)).trans (kept5 m ρ c).nd
  a0 := (StableHlo.after_of_writes_sub hostOps3 _ writes3 (by decide)).trans (kept5 m ρ c).a0
  a1 := (StableHlo.after_of_writes_sub hostOps3 _ writes3 (by decide)).trans (kept5 m ρ c).a1
  a2 := (StableHlo.after_of_writes_sub hostOps3 _ writes3 (by decide)).trans (kept5 m ρ c).a2
  a3 := (StableHlo.after_of_writes_sub hostOps3 _ writes3 (by decide)).trans (kept5 m ρ c).a3
  a4 := (StableHlo.after_of_writes_sub hostOps3 _ writes3 (by decide)).trans (kept5 m ρ c).a4
  a5 := (StableHlo.after_of_writes_sub hostOps3 _ writes3 (by decide)).trans (kept5 m ρ c).a5
  a6 := (StableHlo.after_of_writes_sub hostOps3 _ writes3 (by decide)).trans (kept5 m ρ c).a6
  a7 := (StableHlo.after_of_writes_sub hostOps3 _ writes3 (by decide)).trans (kept5 m ρ c).a7
  a8 := (StableHlo.after_of_writes_sub hostOps3 _ writes3 (by decide)).trans (kept5 m ρ c).a8
  a9 := (StableHlo.after_of_writes_sub hostOps3 _ writes3 (by decide)).trans (kept5 m ρ c).a9
  a10 := (StableHlo.after_of_writes_sub hostOps3 _ writes3 (by decide)).trans (kept5 m ρ c).a10

/-- After region 3. -/
theorem kept7 (c : Dev nD) : Kept m c (W7 m ρ c) where
  ns := (W7_of_ne m ρ c main_v12 (by decide)).trans (kept6 m ρ c).ns
  nd := (W7_arr m ρ c 1).trans (((dat3 (V6 m ρ) c).arrAt_in 1 rfl _).trans ((A_eq3 (V6 m ρ) c 1).trans (kept6 m ρ c).nd))
  a0 := (W7_of_ne m ρ c main_arg0 (by decide)).trans (kept6 m ρ c).a0
  a1 := (W7_of_ne m ρ c main_arg1 (by decide)).trans (kept6 m ρ c).a1
  a2 := (W7_of_ne m ρ c main_arg2 (by decide)).trans (kept6 m ρ c).a2
  a3 := (W7_of_ne m ρ c main_arg3 (by decide)).trans (kept6 m ρ c).a3
  a4 := (W7_of_ne m ρ c main_arg4 (by decide)).trans (kept6 m ρ c).a4
  a5 := (W7_of_ne m ρ c main_arg5 (by decide)).trans (kept6 m ρ c).a5
  a6 := (W7_of_ne m ρ c main_arg6 (by decide)).trans (kept6 m ρ c).a6
  a7 := (W7_of_ne m ρ c main_arg7 (by decide)).trans (kept6 m ρ c).a7
  a8 := (W7_of_ne m ρ c main_arg8 (by decide)).trans (kept6 m ρ c).a8
  a9 := (W7_of_ne m ρ c main_arg9 (by decide)).trans (kept6 m ρ c).a9
  a10 := (W7_of_ne m ρ c main_arg10 (by decide)).trans (kept6 m ρ c).a10

/-- After region 4. -/
theorem kept8 (c : Dev nD) : Kept m c (W8 m ρ c) where
  ns := (W8_arr m ρ c 1).trans (((dat4 (V7 m ρ) c).arrAt_in 1 rfl _).trans ((A_eq4 (V7 m ρ) c 1).trans (kept7 m ρ c).ns))
  nd := (W8_of_ne m ρ c main_v14 (by decide)).trans (kept7 m ρ c).nd
  a0 := (W8_of_ne m ρ c main_arg0 (by decide)).trans (kept7 m ρ c).a0
  a1 := (W8_of_ne m ρ c main_arg1 (by decide)).trans (kept7 m ρ c).a1
  a2 := (W8_of_ne m ρ c main_arg2 (by decide)).trans (kept7 m ρ c).a2
  a3 := (W8_of_ne m ρ c main_arg3 (by decide)).trans (kept7 m ρ c).a3
  a4 := (W8_of_ne m ρ c main_arg4 (by decide)).trans (kept7 m ρ c).a4
  a5 := (W8_of_ne m ρ c main_arg5 (by decide)).trans (kept7 m ρ c).a5
  a6 := (W8_of_ne m ρ c main_arg6 (by decide)).trans (kept7 m ρ c).a6
  a7 := (W8_arr m ρ c 2).trans (((dat4 (V7 m ρ) c).arrAt_in 2 rfl _).trans ((A_eq4 (V7 m ρ) c 2).trans (kept7 m ρ c).a7))
  a8 := (W8_of_ne m ρ c main_arg8 (by decide)).trans (kept7 m ρ c).a8
  a9 := (W8_of_ne m ρ c main_arg9 (by decide)).trans (kept7 m ρ c).a9
  a10 := (W8_of_ne m ρ c main_arg10 (by decide)).trans (kept7 m ρ c).a10

/-- After host stretch 5. -/
theorem kept9 (c : Dev nD) : Kept m c (W9 m ρ c) where
  ns := (StableHlo.after_of_writes_sub hostOps5 _ writes5 (by decide)).trans (kept8 m ρ c).ns
  nd := (StableHlo.after_of_writes_sub hostOps5 _ writes5 (by decide)).trans (kept8 m ρ c).nd
  a0 := (StableHlo.after_of_writes_sub hostOps5 _ writes5 (by decide)).trans (kept8 m ρ c).a0
  a1 := (StableHlo.after_of_writes_sub hostOps5 _ writes5 (by decide)).trans (kept8 m ρ c).a1
  a2 := (StableHlo.after_of_writes_sub hostOps5 _ writes5 (by decide)).trans (kept8 m ρ c).a2
  a3 := (StableHlo.after_of_writes_sub hostOps5 _ writes5 (by decide)).trans (kept8 m ρ c).a3
  a4 := (StableHlo.after_of_writes_sub hostOps5 _ writes5 (by decide)).trans (kept8 m ρ c).a4
  a5 := (StableHlo.after_of_writes_sub hostOps5 _ writes5 (by decide)).trans (kept8 m ρ c).a5
  a6 := (StableHlo.after_of_writes_sub hostOps5 _ writes5 (by decide)).trans (kept8 m ρ c).a6
  a7 := (StableHlo.after_of_writes_sub hostOps5 _ writes5 (by decide)).trans (kept8 m ρ c).a7
  a8 := (StableHlo.after_of_writes_sub hostOps5 _ writes5 (by decide)).trans (kept8 m ρ c).a8
  a9 := (StableHlo.after_of_writes_sub hostOps5 _ writes5 (by decide)).trans (kept8 m ρ c).a9
  a10 := (StableHlo.after_of_writes_sub hostOps5 _ writes5 (by decide)).trans (kept8 m ρ c).a10

/-- After region 5. -/
theorem kept10 (c : Dev nD) : Kept m c (W10 m ρ c) where
  ns := (W10_of_ne m ρ c main_v12 (by decide)).trans (kept9 m ρ c).ns
  nd := (W10_arr m ρ c 1).trans (((dat5 (V9 m ρ) c).arrAt_in 1 rfl _).trans ((A_eq5 (V9 m ρ) c 1).trans (kept9 m ρ c).nd))
  a0 := (W10_of_ne m ρ c main_arg0 (by decide)).trans (kept9 m ρ c).a0
  a1 := (W10_of_ne m ρ c main_arg1 (by decide)).trans (kept9 m ρ c).a1
  a2 := (W10_of_ne m ρ c main_arg2 (by decide)).trans (kept9 m ρ c).a2
  a3 := (W10_of_ne m ρ c main_arg3 (by decide)).trans (kept9 m ρ c).a3
  a4 := (W10_of_ne m ρ c main_arg4 (by decide)).trans (kept9 m ρ c).a4
  a5 := (W10_of_ne m ρ c main_arg5 (by decide)).trans (kept9 m ρ c).a5
  a6 := (W10_of_ne m ρ c main_arg6 (by decide)).trans (kept9 m ρ c).a6
  a7 := (W10_of_ne m ρ c main_arg7 (by decide)).trans (kept9 m ρ c).a7
  a8 := (W10_of_ne m ρ c main_arg8 (by decide)).trans (kept9 m ρ c).a8
  a9 := (W10_of_ne m ρ c main_arg9 (by decide)).trans (kept9 m ρ c).a9
  a10 := (W10_of_ne m ρ c main_arg10 (by decide)).trans (kept9 m ρ c).a10

/-- After region 6. -/
theorem kept11 (c : Dev nD) : Kept m c (W11 m ρ c) where
  ns := (W11_arr m ρ c 1).trans (((dat6 (V10 m ρ) c).arrAt_in 1 rfl _).trans ((A_eq6 (V10 m ρ) c 1).trans (kept10 m ρ c).ns))
  nd := (W11_of_ne m ρ c main_v14 (by decide)).trans (kept10 m ρ c).nd
  a0 := (W11_of_ne m ρ c main_arg0 (by decide)).trans (kept10 m ρ c).a0
  a1 := (W11_of_ne m ρ c main_arg1 (by decide)).trans (kept10 m ρ c).a1
  a2 := (W11_of_ne m ρ c main_arg2 (by decide)).trans (kept10 m ρ c).a2
  a3 := (W11_of_ne m ρ c main_arg3 (by decide)).trans (kept10 m ρ c).a3
  a4 := (W11_of_ne m ρ c main_arg4 (by decide)).trans (kept10 m ρ c).a4
  a5 := (W11_of_ne m ρ c main_arg5 (by decide)).trans (kept10 m ρ c).a5
  a6 := (W11_of_ne m ρ c main_arg6 (by decide)).trans (kept10 m ρ c).a6
  a7 := (W11_of_ne m ρ c main_arg7 (by decide)).trans (kept10 m ρ c).a7
  a8 := (W11_of_ne m ρ c main_arg8 (by decide)).trans (kept10 m ρ c).a8
  a9 := (W11_arr m ρ c 2).trans (((dat6 (V10 m ρ) c).arrAt_in 2 rfl _).trans ((A_eq6 (V10 m ρ) c 2).trans (kept10 m ρ c).a9))
  a10 := (W11_of_ne m ρ c main_arg10 (by decide)).trans (kept10 m ρ c).a10

/-- After host stretch 7. -/
theorem kept12 (c : Dev nD) : Kept m c (W12 m ρ c) where
  ns := (StableHlo.after_of_writes_sub hostOps7 _ writes7 (by decide)).trans (kept11 m ρ c).ns
  nd := (StableHlo.after_of_writes_sub hostOps7 _ writes7 (by decide)).trans (kept11 m ρ c).nd
  a0 := (StableHlo.after_of_writes_sub hostOps7 _ writes7 (by decide)).trans (kept11 m ρ c).a0
  a1 := (StableHlo.after_of_writes_sub hostOps7 _ writes7 (by decide)).trans (kept11 m ρ c).a1
  a2 := (StableHlo.after_of_writes_sub hostOps7 _ writes7 (by decide)).trans (kept11 m ρ c).a2
  a3 := (StableHlo.after_of_writes_sub hostOps7 _ writes7 (by decide)).trans (kept11 m ρ c).a3
  a4 := (StableHlo.after_of_writes_sub hostOps7 _ writes7 (by decide)).trans (kept11 m ρ c).a4
  a5 := (StableHlo.after_of_writes_sub hostOps7 _ writes7 (by decide)).trans (kept11 m ρ c).a5
  a6 := (StableHlo.after_of_writes_sub hostOps7 _ writes7 (by decide)).trans (kept11 m ρ c).a6
  a7 := (StableHlo.after_of_writes_sub hostOps7 _ writes7 (by decide)).trans (kept11 m ρ c).a7
  a8 := (StableHlo.after_of_writes_sub hostOps7 _ writes7 (by decide)).trans (kept11 m ρ c).a8
  a9 := (StableHlo.after_of_writes_sub hostOps7 _ writes7 (by decide)).trans (kept11 m ρ c).a9
  a10 := (StableHlo.after_of_writes_sub hostOps7 _ writes7 (by decide)).trans (kept11 m ρ c).a10

end Cert.KernelIdeal.Fold

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«162165_j5927054869163_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«162165_j5927054869163_1_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«162165_j5927054869163_1_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.LibColumnBroadcast.lean ====
/-
  A column spread along the columns of a matrix, read at an index, for any extents: an `[a, 1]` array
  broadcast to `[a, b]` holds, at `(p, c)`, the column's entry `p` whatever `c` is.
-/
import Idealize.ShloMosaic.Lib.ValueIdx
import Idealize.ShloMosaic.Lib.Pipeline.Value

noncomputable section

namespace Cert.Layout

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibScaledRows.lean ====
/-
  Rows scaled by a column: the two dense steps of a degree-normalised graph convolution, for any extents.

  Write `x` for an `[R, K]` array of extended reals and `n` for a column `[R, 1]`. `scale x n` multiplies row `r`
  of `x` by `n (r, 0)`. The projection step is `scaledProd x n w = (scale x n) · w` for a `[K, N]` matrix `w`; the
  combination step is `scaledPlus x n b = scale x n + b` with the length-`N` vector `b` added to every row, and
  `scaledPlusMax` is the same floored at a constant. Each is one whole-array function, entry by entry.

  Three things are proved about them, all for arbitrary extents and with no finiteness assumption (only
  rewriting of the same sums and products, never distributivity):
  * the vector unit's spelling (the column spread along the rows by a broadcast, the bias as a one-row array spread
    down the rows, the product on the matrix unit accumulating into zero, narrowing casts being the identity on the
    extended reals) computes them;
  * the host's spelling (`broadcast_in_dim` for the column and for the bias, `dot_general` for the product) computes
    them;
  * they act on each row by itself, so a block that holds rows `o, o + 1, …` of taller operands holds the same rows of
    the taller result.
-/
import Idealize.ShloMosaic.Lib.ValueIdx
import Idealize.ShloMosaic.Lib.Pipeline.Value
import Idealize.ShloMosaic.PureOps.Ideal.Laws
import proofs.«162165_j5927054869163_1_alg».proof.Proof.LibRowBlocks
import proofs.«162165_j5927054869163_1_alg».proof.Proof.LibRowBias
import proofs.«162165_j5927054869163_1_alg».proof.Proof.LibColumnBroadcast
import proofs.«162165_j5927054869163_1_alg».proof.Proof.LibHostColumn
import proofs.«162165_j5927054869163_1_alg».proof.Proof.LibHostRow

noncomputable section

namespace Cert.ScaledRows

open Idealize.ShloMosaic Idealize.ShloMosaic.ValueIdx
open Cert.MatProduct (rowOf colOf prod eq_row_col)
open Cert.Bridge (RowsAt)

/-! ## The functions -/

/-- Row `r` of `x` multiplied by entry `r` of the column `n`. -/
def scale {R K : ℕ} (x : (⟨2, ![R, K]⟩ : Shape).Idx → EReal) (n : (⟨2, ![R, 1]⟩ : Shape).Idx → EReal) :
    (⟨2, ![R, K]⟩ : Shape).Idx → EReal :=
  fun y => x y * n (ix2 (rowOf y) (0 : Fin 1))

/-- The rows of `x` scaled by `n`, then multiplied by the matrix `w` on the right. -/
def scaledProd {R K N : ℕ} (x : (⟨2, ![R, K]⟩ : Shape).Idx → EReal) (n : (⟨2, ![R, 1]⟩ : Shape).Idx → EReal)
    (w : (⟨2, ![K, N]⟩ : Shape).Idx → EReal) : (⟨2, ![R, N]⟩ : Shape).Idx → EReal :=
  prod (scale x n) w

/-- The rows of `x` scaled by `n`, plus the vector `b` added to every row. -/
def scaledPlus {R N : ℕ} (x : (⟨2, ![R, N]⟩ : Shape).Idx → EReal) (n : (⟨2, ![R, 1]⟩ : Shape).Idx → EReal)
    (b : (⟨1, ![N]⟩ : Shape).Idx → EReal) : (⟨2, ![R, N]⟩ : Shape).Idx → EReal :=
  fun y => x y * n (ix2 (rowOf y) (0 : Fin 1)) + b (ix1 (colOf y))

/-- The same floored at `z`, entry by entry. -/
def scaledPlusMax {R N : ℕ} (x : (⟨2, ![R, N]⟩ : Shape).Idx → EReal) (n : (⟨2, ![R, 1]⟩ : Shape).Idx → EReal)
    (b : (⟨1, ![N]⟩ : Shape).Idx → EReal) (z : EReal) : (⟨2, ![R, N]⟩ : Shape).Idx → EReal :=
  fun y => max (scaledPlus x n b y) z

/-- A one-row array read as a vector: entry `c` is the row's entry `(0, c)`. -/
def rowVec {α : Type} {N : ℕ} (b1 : (⟨2, ![1, N]⟩ : Shape).Idx → α) : (⟨1, ![N]⟩ : Shape).Idx → α :=
  fun i => b1 (ix2 (0 : Fin 1) (i 0))

/-- A vector regarded as one row by a cast, read back as a vector, is the vector. -/
theorem rowVec_shapeCast {α : Type} {N : ℕ} (b : (⟨1, ![N]⟩ : Shape).Idx → α)
    (h : (⟨1, ![N]⟩ : Shape).ShapeCasts ⟨2, ![1, N]⟩) : rowVec (shapeCast ⟨2, ![1, N]⟩ b h) = b :=
  funext fun i => (Cert.RowBias.vecRow_apply b h (i 0)).trans (congrArg b (eq_ix1 i).symm)

theorem rowOf_ix2 {M N : ℕ} (p : Fin M) (j : Fin N) : rowOf (ix2 p j) = p := rfl
theorem colOf_ix2 {M N : ℕ} (p : Fin M) (j : Fin N) : colOf (ix2 p j) = j := rfl

/-! ## The vector unit's spelling -/

/-- A column spread along the rows by the vector unit reads, at `y`, the column's entry in `y`'s row. -/
theorem spreadCol_apply {M K : ℕ} (n : (⟨2, ![M, 1]⟩ : Shape).Idx → EReal)
    (hb : (⟨2, ![M, 1]⟩ : Shape).Broadcasts ⟨2, ![M, K]⟩) (y : (⟨2, ![M, K]⟩ : Shape).Idx) :
    broadcastTo ⟨2, ![M, K]⟩ n hb y = n (ix2 (rowOf y) (0 : Fin 1)) := by
  rw [eq_row_col y]
  exact Cert.Layout.broadcastTo_a1_ab_apply n hb (rowOf y) (colOf y)

/-- `x * spread n`, through the identity cast the lowering leaves on the column. -/
theorem vec_scale {M K : ℕ} (x : FVec Ideal ⟨2, ![M, K]⟩ .f32) (n : FVec Ideal ⟨2, ![M, 1]⟩ .f32)
    (hc : (⟨2, ![M, 1]⟩ : Shape).ShapeCasts ⟨2, ![M, 1]⟩) (hb : (⟨2, ![M, 1]⟩ : Shape).Broadcasts ⟨2, ![M, K]⟩) :
    mulf x (broadcastTo ⟨2, ![M, K]⟩ (shapeCast ⟨2, ![M, 1]⟩ n hc) hb) = scale x n := by
  rw [shapeCast_self]
  funext y
  rw [mulf_apply, spreadCol_apply]
  rfl

/-- The projection step on the matrix unit: both operands narrowed (the identity on the extended reals), the
    accumulator zero. -/
theorem mxu_scaledProd {M K N : ℕ} (x : FVec Ideal ⟨2, ![M, K]⟩ .f32) (n : FVec Ideal ⟨2, ![M, 1]⟩ .f32)
    (w : FVec Ideal ⟨2, ![K, N]⟩ .f32)
    (hc : (⟨2, ![M, 1]⟩ : Shape).ShapeCasts ⟨2, ![M, 1]⟩) (hb : (⟨2, ![M, 1]⟩ : Shape).Broadcasts ⟨2, ![M, K]⟩)
    (hlt : FTy.bf16.bits < FTy.f32.bits) :
    matmul (DotDims.plain M K N) none
        (truncf .bf16 (mulf x (broadcastTo ⟨2, ![M, K]⟩ (shapeCast ⟨2, ![M, 1]⟩ n hc) hb)) hlt) (truncf .bf16 w hlt)
        (constant (F := Ideal) ⟨2, ![M, N]⟩ .f32 0x00000000#32)
      = scaledProd x n w := by
  rw [vec_scale]
  exact Cert.MatProduct.matmul_zero_eq_prod none _ _

/-- The same with the identity cast the lowering leaves on the first operand when it was itself loaded from a result. -/
theorem mxu_scaledProd_cast {M K N : ℕ} (x : FVec Ideal ⟨2, ![M, K]⟩ .f32) (n : FVec Ideal ⟨2, ![M, 1]⟩ .f32)
    (w : FVec Ideal ⟨2, ![K, N]⟩ .f32) (h0 : (⟨2, ![M, K]⟩ : Shape).ShapeCasts ⟨2, ![M, K]⟩)
    (hc : (⟨2, ![M, 1]⟩ : Shape).ShapeCasts ⟨2, ![M, 1]⟩) (hb : (⟨2, ![M, 1]⟩ : Shape).Broadcasts ⟨2, ![M, K]⟩)
    (hlt : FTy.bf16.bits < FTy.f32.bits) :
    matmul (DotDims.plain M K N) none
        (truncf .bf16 (mulf (shapeCast ⟨2, ![M, K]⟩ x h0) (broadcastTo ⟨2, ![M, K]⟩ (shapeCast ⟨2, ![M, 1]⟩ n hc) hb)) hlt)
        (truncf .bf16 w hlt) (constant (F := Ideal) ⟨2, ![M, N]⟩ .f32 0x00000000#32)
      = scaledProd x n w := by
  rw [shapeCast_self x h0]
  exact mxu_scaledProd x n w hc hb hlt

/-- The combination step on the vector unit, the bias given as a one-row array read from the vector `b`. -/
theorem vec_scaledPlus {M N : ℕ} (x : FVec Ideal ⟨2, ![M, N]⟩ .f32) (n : FVec Ideal ⟨2, ![M, 1]⟩ .f32)
    (b1 : FVec Ideal ⟨2, ![1, N]⟩ .f32) (b : (⟨1, ![N]⟩ : Shape).Idx → EReal)
    (hrow : ∀ c : Fin N, b1 (ix2 (0 : Fin 1) c) = b (ix1 c))
    (h0 : (⟨2, ![M, N]⟩ : Shape).ShapeCasts ⟨2, ![M, N]⟩)
    (hc : (⟨2, ![M, 1]⟩ : Shape).ShapeCasts ⟨2, ![M, 1]⟩) (hb : (⟨2, ![M, 1]⟩ : Shape).Broadcasts ⟨2, ![M, N]⟩)
    (h1 : (⟨2, ![1, N]⟩ : Shape).ShapeCasts ⟨2, ![1, N]⟩) (hb1 : (⟨2, ![1, N]⟩ : Shape).Broadcasts ⟨2, ![M, N]⟩) :
    addf (mulf (shapeCast ⟨2, ![M, N]⟩ x h0) (broadcastTo ⟨2, ![M, N]⟩ (shapeCast ⟨2, ![M, 1]⟩ n hc) hb))
        (broadcastTo ⟨2, ![M, N]⟩ (shapeCast ⟨2, ![1, N]⟩ b1 h1) hb1)
      = scaledPlus x n b := by
  rw [shapeCast_self, shapeCast_self, shapeCast_self]
  funext y
  rw [addf_apply, mulf_apply, spreadCol_apply, Cert.RowBias.spreadRow_apply, hrow]
  rfl

/-- The same floored at a splat of `z`. -/
theorem vec_scaledPlusMax {M N : ℕ} (x : FVec Ideal ⟨2, ![M, N]⟩ .f32) (n : FVec Ideal ⟨2, ![M, 1]⟩ .f32)
    (b1 : FVec Ideal ⟨2, ![1, N]⟩ .f32) (b : (⟨1, ![N]⟩ : Shape).Idx → EReal)
    (hrow : ∀ c : Fin N, b1 (ix2 (0 : Fin 1) c) = b (ix1 c))
    (h0 : (⟨2, ![M, N]⟩ : Shape).ShapeCasts ⟨2, ![M, N]⟩)
    (hc : (⟨2, ![M, 1]⟩ : Shape).ShapeCasts ⟨2, ![M, 1]⟩) (hb : (⟨2, ![M, 1]⟩ : Shape).Broadcasts ⟨2, ![M, N]⟩)
    (h1 : (⟨2, ![1, N]⟩ : Shape).ShapeCasts ⟨2, ![1, N]⟩) (hb1 : (⟨2, ![1, N]⟩ : Shape).Broadcasts ⟨2, ![M, N]⟩)
    (z : Ideal .f32) :
    maximumf (addf (mulf (shapeCast ⟨2, ![M, N]⟩ x h0) (broadcastTo ⟨2, ![M, N]⟩ (shapeCast ⟨2, ![M, 1]⟩ n hc) hb))
        (broadcastTo ⟨2, ![M, N]⟩ (shapeCast ⟨2, ![1, N]⟩ b1 h1) hb1)) (broadcast ⟨2, ![M, N]⟩ z)
      = scaledPlusMax x n b z := by
  rw [vec_scaledPlus x n b1 b hrow]
  funext y
  rw [maximumf_apply, broadcast_apply]
  rfl

/-! ## The host's spelling -/

/-- A column spread along the rows by the host reads, at `y`, the column's entry in `y`'s row. -/
theorem hostSpreadCol_apply {R K : ℕ} (n : (⟨2, ![R, 1]⟩ : Shape).Idx → EReal)
    (h : (⟨2, ![R, 1]⟩ : Shape).BroadcastsInDim ⟨2, ![R, K]⟩ (![0, 1] : Fin 2 → Fin 2)) (y : (⟨2, ![R, K]⟩ : Shape).Idx) :
    broadcastInDim ⟨2, ![R, K]⟩ ![0, 1] h n y = n (ix2 (rowOf y) (0 : Fin 1)) := by
  rw [eq_row_col y]
  exact Cert.LibHostColumn.spread_apply n h (rowOf y) (colOf y)

/-- The host's `x * spread n`. -/
theorem host_scale {R K : ℕ} (x : FVec Ideal ⟨2, ![R, K]⟩ .f32) (n : FVec Ideal ⟨2, ![R, 1]⟩ .f32)
    (h : (⟨2, ![R, 1]⟩ : Shape).BroadcastsInDim ⟨2, ![R, K]⟩ (![0, 1] : Fin 2 → Fin 2)) :
    mulf x (broadcastInDim ⟨2, ![R, K]⟩ ![0, 1] h n) = scale x n := by
  funext y
  rw [mulf_apply, hostSpreadCol_apply]
  rfl

/-- The host's projection step. -/
theorem host_scaledProd {R K N : ℕ} (x : FVec Ideal ⟨2, ![R, K]⟩ .f32) (n : FVec Ideal ⟨2, ![R, 1]⟩ .f32)
    (w : FVec Ideal ⟨2, ![K, N]⟩ .f32)
    (h : (⟨2, ![R, 1]⟩ : Shape).BroadcastsInDim ⟨2, ![R, K]⟩ (![0, 1] : Fin 2 → Fin 2)) :
    Host.dotGeneral (DotDims.plain R K N) none (mulf x (broadcastInDim ⟨2, ![R, K]⟩ ![0, 1] h n)) w = scaledProd x n w := by
  rw [host_scale]
  exact Cert.MatProduct.dotGeneral_eq_prod none .single _ _

/-- The host's combination step: the bias vector regarded as one row, the row repeated down the rows. -/
theorem host_scaledPlus {R N : ℕ} (x : FVec Ideal ⟨2, ![R, N]⟩ .f32) (n : FVec Ideal ⟨2, ![R, 1]⟩ .f32)
    (b : FVec Ideal ⟨1, ![N]⟩ .f32)
    (h : (⟨2, ![R, 1]⟩ : Shape).BroadcastsInDim ⟨2, ![R, N]⟩ (![0, 1] : Fin 2 → Fin 2))
    (hr : (⟨1, ![N]⟩ : Shape).BroadcastsInDim ⟨2, ![1, N]⟩ (![1] : Fin 1 → Fin 2))
    (hrs : (⟨2, ![1, N]⟩ : Shape).BroadcastsInDim ⟨2, ![R, N]⟩ (![0, 1] : Fin 2 → Fin 2)) :
    addf (mulf x (broadcastInDim ⟨2, ![R, N]⟩ ![0, 1] h n))
        (broadcastInDim ⟨2, ![R, N]⟩ ![0, 1] hrs (broadcastInDim ⟨2, ![1, N]⟩ ![1] hr b))
      = scaledPlus x n b := by
  funext y
  rw [addf_apply, mulf_apply, hostSpreadCol_apply]
  rw [eq_row_col y, Cert.LibHostRow.rows_apply, Cert.LibHostRow.row_apply]
  rfl

/-- The host's floored combination step: the floor a scalar spread over the array. -/
theorem host_scaledPlusMax {R N : ℕ} (x : FVec Ideal ⟨2, ![R, N]⟩ .f32) (n : FVec Ideal ⟨2, ![R, 1]⟩ .f32)
    (b : FVec Ideal ⟨1, ![N]⟩ .f32)
    (h : (⟨2, ![R, 1]⟩ : Shape).BroadcastsInDim ⟨2, ![R, N]⟩ (![0, 1] : Fin 2 → Fin 2))
    (hr : (⟨1, ![N]⟩ : Shape).BroadcastsInDim ⟨2, ![1, N]⟩ (![1] : Fin 1 → Fin 2))
    (hrs : (⟨2, ![1, N]⟩ : Shape).BroadcastsInDim ⟨2, ![R, N]⟩ (![0, 1] : Fin 2 → Fin 2))
    (hz : (⟨0, ![]⟩ : Shape).BroadcastsInDim ⟨2, ![R, N]⟩ (![] : Fin 0 → Fin 2)) (z : FVec Ideal ⟨0, ![]⟩ .f32) :
    maximumf (addf (mulf x (broadcastInDim ⟨2, ![R, N]⟩ ![0, 1] h n))
        (broadcastInDim ⟨2, ![R, N]⟩ ![0, 1] hrs (broadcastInDim ⟨2, ![1, N]⟩ ![1] hr b)))
        (broadcastInDim ⟨2, ![R, N]⟩ ![] hz z)
      = scaledPlusMax x n b (z ix0) := by
  rw [host_scaledPlus]
  funext y
  rw [maximumf_apply, Cert.LibHostRow.scalar_apply]
  rfl

/-! ## Each step acts on every row by itself -/

variable {M R K N : ℕ} {o : ℕ}

/-- Scaling keeps the relation, when the block's column holds the same rows of the taller column. -/
theorem rowsAt_scale {x : (⟨2, ![M, K]⟩ : Shape).Idx → EReal} {a : (⟨2, ![R, K]⟩ : Shape).Idx → EReal}
    {n : (⟨2, ![M, 1]⟩ : Shape).Idx → EReal} {a1 : (⟨2, ![R, 1]⟩ : Shape).Idx → EReal}
    (hx : RowsAt o x a) (hn : RowsAt o n a1) : RowsAt o (scale x n) (scale a a1) :=
  fun p r j e => by
    show x (ix2 p j) * n (ix2 p (0 : Fin 1)) = a (ix2 r j) * a1 (ix2 r (0 : Fin 1))
    rw [hx p r j e, hn p r 0 e]

/-- The projection step keeps the relation. -/
theorem rowsAt_scaledProd {x : (⟨2, ![M, K]⟩ : Shape).Idx → EReal} {a : (⟨2, ![R, K]⟩ : Shape).Idx → EReal}
    {n : (⟨2, ![M, 1]⟩ : Shape).Idx → EReal} {a1 : (⟨2, ![R, 1]⟩ : Shape).Idx → EReal}
    (hx : RowsAt o x a) (hn : RowsAt o n a1) (w : (⟨2, ![K, N]⟩ : Shape).Idx → EReal) :
    RowsAt o (scaledProd x n w) (scaledProd a a1 w) :=
  (rowsAt_scale hx hn).prod w

/-- The combination step keeps the relation. -/
theorem rowsAt_scaledPlus {x : (⟨2, ![M, N]⟩ : Shape).Idx → EReal} {a : (⟨2, ![R, N]⟩ : Shape).Idx → EReal}
    {n : (⟨2, ![M, 1]⟩ : Shape).Idx → EReal} {a1 : (⟨2, ![R, 1]⟩ : Shape).Idx → EReal}
    (hx : RowsAt o x a) (hn : RowsAt o n a1) (b : (⟨1, ![N]⟩ : Shape).Idx → EReal) :
    RowsAt o (scaledPlus x n b) (scaledPlus a a1 b) :=
  fun p r j e => by
    show x (ix2 p j) * n (ix2 p (0 : Fin 1)) + b (ix1 j) = a (ix2 r j) * a1 (ix2 r (0 : Fin 1)) + b (ix1 j)
    rw [hx p r j e, hn p r 0 e]

/-- The floored combination step keeps the relation. -/
theorem rowsAt_scaledPlusMax {x : (⟨2, ![M, N]⟩ : Shape).Idx → EReal} {a : (⟨2, ![R, N]⟩ : Shape).Idx → EReal}
    {n : (⟨2, ![M, 1]⟩ : Shape).Idx → EReal} {a1 : (⟨2, ![R, 1]⟩ : Shape).Idx → EReal}
    (hx : RowsAt o x a) (hn : RowsAt o n a1) (b : (⟨1, ![N]⟩ : Shape).Idx → EReal) (z : EReal) :
    RowsAt o (scaledPlusMax x n b z) (scaledPlusMax a a1 b z) :=
  fun p r j e => congrArg (fun v => max v z) (rowsAt_scaledPlus hx hn b p r j e)

/-- Related arrays read at any two indices with related rows and one column: the block at `y`, the taller array at
    an index `i` whose row is `o` plus `y`'s row and whose column is `y`'s. -/
theorem rowsAt_read {α : Type} {hk : (⟨2, ![M, N]⟩ : Shape).Idx → α} {hr : (⟨2, ![R, N]⟩ : Shape).Idx → α}
    (h : RowsAt o hk hr) (y : (⟨2, ![M, N]⟩ : Shape).Idx) (i : (⟨2, ![R, N]⟩ : Shape).Idx)
    (h0 : (i 0).val = o + (y 0).val) (h1 : (i 1).val = (y 1).val) : hk y = hr i := by
  have hc : colOf i = colOf y := Fin.ext h1
  calc hk y = hk (ix2 (rowOf y) (colOf y)) := congrArg hk (eq_row_col y)
    _ = hr (ix2 (rowOf i) (colOf y)) := h (rowOf y) (rowOf i) (colOf y) h0
    _ = hr (ix2 (rowOf i) (colOf i)) := by rw [hc]
    _ = hr i := (congrArg hr (eq_row_col i)).symm

end Cert.ScaledRows

end
-- ==== Proof.RefStages.lean ====
/-
  The reference, layer by layer.

  The reference computes each graph-convolution layer on the host in three steps: the rows of the layer's input scaled
  by the source-degree column and multiplied by the weight matrix (`dot_general`), the edge aggregation (a gather
  along the source indices and a scatter-add along the destination indices), and the rows of the aggregate scaled by
  the destination-degree column plus the bias row, floored at zero in all layers but the last. The first and the last
  step are the whole-array functions `scaledProd`, `scaledPlusMax` and `scaledPlus` of the stage before them; the
  aggregation is left as the host operations it is.
-/
import proofs.«162165_j5927054869163_1_alg».proof.Proof.Gen.ReferenceIdeal.Read
import proofs.«162165_j5927054869163_1_alg».proof.Proof.LibScaledRows

noncomputable section

namespace Cert.ReferenceIdeal.RefValue

open Cert.ReferenceIdeal Cert.ReferenceIdeal.Gen Cert.ReferenceIdeal.Read
open Idealize.ShloMosaic Idealize.ShloMosaic.ValueIdx
open Cert.ScaledRows

/-- Layer 1's projection: the input features scaled by the source-degree column, times `W1`. -/
theorem proj1 (x0 : (⟨S100000x256, .f32⟩ : BufTy).Contents (Elt Ideal)) (x1 : (⟨S1600000, .i32⟩ : BufTy).Contents (Elt Ideal)) (x3 : (⟨S256x128, .f32⟩ : BufTy).Contents (Elt Ideal)) :
    val_main_v17 (F := Ideal) x0 x1 x3 = scaledProd x0 (val_main_v12 (F := Ideal) x1) x3 := by
  unfold val_main_v17 val_main_v16 val_main_v15
  exact host_scaledProd x0 (val_main_v12 (F := Ideal) x1) x3 _

/-- Layer 1's combination: the aggregate scaled by the destination-degree column, plus `b1`, floored at zero. -/
theorem comb1 (x0 : (⟨S100000x256, .f32⟩ : BufTy).Contents (Elt Ideal)) (x1 : (⟨S1600000, .i32⟩ : BufTy).Contents (Elt Ideal)) (x2 : (⟨S1600000, .i32⟩ : BufTy).Contents (Elt Ideal)) (x3 : (⟨S256x128, .f32⟩ : BufTy).Contents (Elt Ideal)) (x4 : (⟨S128, .f32⟩ : BufTy).Contents (Elt Ideal)) :
    val_main_v33 (F := Ideal) x0 x1 x2 x3 x4
      = scaledPlusMax (val_main_v27 (F := Ideal) x0 x1 x2 x3) (val_main_v14 (F := Ideal) x2) x4 (Scalar.ofBits (F := Ideal) .f32 0x00000000#32) := by
  unfold val_main_v33 val_main_v32 val_main_v31 val_main_v30 val_main_v29 val_main_v28 val_main_call0_v0 val_main_call0_cst
  exact host_scaledPlusMax _ (val_main_v14 (F := Ideal) x2) x4 _ _ _ _ _

/-- Layer 2's projection. -/
theorem proj2 (x0 : (⟨S100000x256, .f32⟩ : BufTy).Contents (Elt Ideal)) (x1 : (⟨S1600000, .i32⟩ : BufTy).Contents (Elt Ideal)) (x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) :
    val_main_v36 (F := Ideal) x0 x1 x2 x3 x4 x5 = scaledProd (val_main_v33 (F := Ideal) x0 x1 x2 x3 x4) (val_main_v12 (F := Ideal) x1) x5 := by
  unfold val_main_v36 val_main_v35 val_main_v34
  exact host_scaledProd _ (val_main_v12 (F := Ideal) x1) x5 _

/-- Layer 2's combination. -/
theorem comb2 (x0 : (⟨S100000x256, .f32⟩ : BufTy).Contents (Elt Ideal)) (x1 : (⟨S1600000, .i32⟩ : BufTy).Contents (Elt Ideal)) (x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v52 (F := Ideal) x0 x1 x2 x3 x4 x5 x6
      = scaledPlusMax (val_main_v46 (F := Ideal) x0 x1 x2 x3 x4 x5) (val_main_v14 (F := Ideal) x2) x6 (Scalar.ofBits (F := Ideal) .f32 0x00000000#32) := by
  unfold val_main_v52 val_main_v51 val_main_v50 val_main_v49 val_main_v48 val_main_v47 val_main_call1_v0 val_main_call1_cst
  exact host_scaledPlusMax _ (val_main_v14 (F := Ideal) x2) x6 _ _ _ _ _

/-- Layer 3's projection. -/
theorem proj3 (x0 : (⟨S100000x256, .f32⟩ : BufTy).Contents (Elt Ideal)) (x1 : (⟨S1600000, .i32⟩ : BufTy).Contents (Elt Ideal)) (x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x16, .f32⟩ : BufTy).Contents (Elt Ideal)) :
    val_main_v55 (F := Ideal) x0 x1 x2 x3 x4 x5 x6 x7 = scaledProd (val_main_v52 (F := Ideal) x0 x1 x2 x3 x4 x5 x6) (val_main_v12 (F := Ideal) x1) x7 := by
  unfold val_main_v55 val_main_v54 val_main_v53
  exact host_scaledProd _ (val_main_v12 (F := Ideal) x1) x7 _

/-- Layer 3's combination. -/
theorem comb3 (x0 : (⟨S100000x256, .f32⟩ : BufTy).Contents (Elt Ideal)) (x1 : (⟨S1600000, .i32⟩ : BufTy).Contents (Elt Ideal)) (x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x16, .f32⟩ : BufTy).Contents (Elt Ideal)) (x8 : (⟨S16, .f32⟩ : BufTy).Contents (Elt Ideal)) :
    val_main_v71 (F := Ideal) x0 x1 x2 x3 x4 x5 x6 x7 x8
      = scaledPlusMax (val_main_v65 (F := Ideal) x0 x1 x2 x3 x4 x5 x6 x7) (val_main_v14 (F := Ideal) x2) x8 (Scalar.ofBits (F := Ideal) .f32 0x00000000#32) := by
  unfold val_main_v71 val_main_v70 val_main_v69 val_main_v68 val_main_v67 val_main_v66 val_main_call2_v0 val_main_call2_cst
  exact host_scaledPlusMax _ (val_main_v14 (F := Ideal) x2) x8 _ _ _ _ _

/-- Layer 4's projection. -/
theorem proj4 (x0 : (⟨S100000x256, .f32⟩ : BufTy).Contents (Elt Ideal)) (x1 : (⟨S1600000, .i32⟩ : BufTy).Contents (Elt Ideal)) (x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x16, .f32⟩ : BufTy).Contents (Elt Ideal)) (x8 : (⟨S16, .f32⟩ : BufTy).Contents (Elt Ideal)) (x9 : (⟨S16x40, .f32⟩ : BufTy).Contents (Elt Ideal)) :
    val_main_v74 (F := Ideal) x0 x1 x2 x3 x4 x5 x6 x7 x8 x9 = scaledProd (val_main_v71 (F := Ideal) x0 x1 x2 x3 x4 x5 x6 x7 x8) (val_main_v12 (F := Ideal) x1) x9 := by
  unfold val_main_v74 val_main_v73 val_main_v72
  exact host_scaledProd _ (val_main_v12 (F := Ideal) x1) x9 _

/-- Layer 4's combination, which has no floor: the reference's result. -/
theorem comb4 (x0 : (⟨S100000x256, .f32⟩ : BufTy).Contents (Elt Ideal)) (x1 : (⟨S1600000, .i32⟩ : BufTy).Contents (Elt Ideal)) (x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x16, .f32⟩ : BufTy).Contents (Elt Ideal)) (x8 : (⟨S16, .f32⟩ : BufTy).Contents (Elt Ideal)) (x9 : (⟨S16x40, .f32⟩ : BufTy).Contents (Elt Ideal)) (x10 : (⟨S40, .f32⟩ : BufTy).Contents (Elt Ideal)) :
    val_main_v89 (F := Ideal) x0 x1 x2 x3 x4 x5 x6 x7 x8 x9 x10
      = scaledPlus (val_main_v84 (F := Ideal) x0 x1 x2 x3 x4 x5 x6 x7 x8 x9) (val_main_v14 (F := Ideal) x2) x10 := by
  unfold val_main_v89 val_main_v88 val_main_v87 val_main_v86 val_main_v85
  exact host_scaledPlus _ (val_main_v14 (F := Ideal) x2) x10 _ _ _

end Cert.ReferenceIdeal.RefValue

end
-- ==== Proof.Layer1Proj.lean ====
/-
  Region 0 of the kernel's @main, the projection of layer 1: the rows of the layer's input scaled by the source-degree column, times the layer's
  256×128 weight matrix.

  The region walks 50 grid points; point t loads rows 2000·t … 2000·t + 1999 of its first operand and of the degree
  column, the whole of its third operand, and writes rows 2000·t … of its result. The body's arithmetic acts on every
  row by itself, so what point t writes back is block t of ONE whole-array function of the three arrays as the region
  finds them; the 50 blocks tile the result, so after the region the result array is that function.
-/
import proofs.«162165_j5927054869163_1_alg».proof.Proof.Gen.KernelIdeal.Frame
import proofs.«162165_j5927054869163_1_alg».proof.Proof.LibScaledRows

set_option maxRecDepth 16384

noncomputable section

namespace Cert.KernelIdeal.Layer1Proj

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)
open Cert.ScaledRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on the loaded blocks is the projection step of the blocks. -/
theorem pay (x0 : Vec Ideal S2000x256 .f32) (x1 : Vec Ideal S2000x1 .f32) (x2 : Vec Ideal S256x128 .f32) :
    k0_pay1 x0 x1 x2 = scaledProd x0 x1 x2 := by
  unfold k0_pay1
  exact mxu_scaledProd x0 x1 x2 _ _ _

/-- The printed index maps, decided over the 50 grid points: the first operand, the degree column and the result
    move with the point along the rows; the third operand stays at its one block. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first operand's block at point `t` holds rows 2000·t … of its array. -/
theorem rows_0 (c : Dev nD) (t : Fin cfg0.N) : RowsAt (2000 * t.val) (iblk0 V c 0 t) (V c main_arg0) := by
  intro p r j e
  obtain ⟨e0, e1, -⟩ := idx t
  show V c main_arg0 (((cfg0.win 0).blk t).view.emb (ix2 p j)) = V c main_arg0 (ix2 r j)
  refine congrArg _ (funext fun a => Fin.ext ?_)
  match a with
  | ⟨0, _⟩ => show win0_0.index t (0 : Fin 2) * 2000 + 1 * p.val = r.val; omega
  | ⟨1, _⟩ => show win0_0.index t (1 : Fin 2) * 256 + 1 * j.val = j.val; omega

/-- The degree column's block at point `t` holds rows 2000·t … of the column. -/
theorem rows_1 (c : Dev nD) (t : Fin cfg0.N) : RowsAt (2000 * t.val) (iblk0 V c 1 t) (V c main_v12) := by
  intro p r j e
  obtain ⟨-, -, e0, e1, -⟩ := idx t
  show V c main_v12 (((cfg0.win 1).blk t).view.emb (ix2 p j)) = V c main_v12 (ix2 r j)
  refine congrArg _ (funext fun a => Fin.ext ?_)
  match a with
  | ⟨0, _⟩ => show win0_1.index t (0 : Fin 2) * 2000 + 1 * p.val = r.val; omega
  | ⟨1, _⟩ => show win0_1.index t (1 : Fin 2) * 1 + 1 * j.val = j.val; omega

/-- The third operand's block at every point is its whole array. -/
theorem whole_2 (c : Dev nD) (t : Fin cfg0.N) : iblk0 V c 2 t = V c main_arg3 := by
  obtain ⟨-, -, -, -, e0, e1, -⟩ := idx t
  funext z
  show V c main_arg3 (((cfg0.win 2).blk t).view.emb z) = V c main_arg3 z
  refine congrArg _ (funext fun a => Fin.ext ?_)
  match a with
  | ⟨0, _⟩ => show win0_2.index t (0 : Fin 2) * 256 + 1 * (z 0).val = (z 0).val; omega
  | ⟨1, _⟩ => show win0_2.index t (1 : Fin 2) * 128 + 1 * (z 1).val = (z 1).val; omega

/-- What point `t` writes back is block `t` of the step applied to the whole arrays: row `p` of the block's result
    reads row `p` of the blocks only, which is row 2000·t + p of the arrays. -/
theorem flushed_eq (c : Dev nD) (t : Fin cfg0.N) :
    (dat0 V c).flushed 3 t
      = ((cfg0.win 3).blk t).view.read (Elt Ideal) (scaledProd (V c main_arg0) (V c main_v12) (V c main_arg3)) := by
  show (cfg0.win 3).cut (grid0.coords t) ((dat0 V c).after 3 t) = _
  rw [after0_3]
  unfold out0_3
  rw [View.canon_unit_zero origin]
  simp only [View.ld_unit_zero (S := S2000x256) origin, View.ld_unit_zero (S := S2000x1) origin, View.ld_unit_zero (S := S256x128) origin]
  refine (pay (iblk0 V c 0 t) (iblk0 V c 1 t) (iblk0 V c 2 t)).trans ?_
  obtain ⟨-, -, -, -, -, -, e0, e1⟩ := idx t
  funext y
  refine (rowsAt_read (rowsAt_scaledProd (rows_0 V c t) (rows_1 V c t) (iblk0 V c 2 t)) y
    (((cfg0.win 3).blk t).view.emb y) ?_ ?_).trans ?_
  · show win0_3.index t (0 : Fin 2) * 2000 + 1 * (y 0).val = 2000 * t.val + (y 0).val; omega
  · show win0_3.index t (1 : Fin 2) * 128 + 1 * (y 1).val = (y 1).val; omega
  · rw [whole_2]; rfl

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v15).slice (win0_3.rect t)).set ↔ _
  rw [View.set_slice_whole, Rect.mem_set_unit]
  exact Iff.rfl

/-- The blocks tile the result: row `r` is in the block of point `r / 2000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, e0, e1⟩ := idx t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE RESULT ARRAY after the region, for any contents `V` the region is entered at: the step applied to the three
    arrays as the region finds them. -/
theorem final (c : Dev nD) :
    (dat0 V c).arrAt 3 cfg0.N = scaledProd (V c main_arg0) (V c main_v12) (V c main_arg3) :=
  (dat0 V c).arrAt_eq_of_cover 3 _ (fun t _ => flushed_eq V c t) cover

end Cert.KernelIdeal.Layer1Proj

end
-- ==== Proof.Layer1Comb.lean ====
/-
  Region 1 of the kernel's @main, the combination of layer 1: the rows of the aggregated features scaled by the destination-degree column, plus the
  bias row, floored at zero.

  The region walks 50 grid points; point t loads rows 2000·t … 2000·t + 1999 of its first operand and of the degree
  column, the whole of its third operand, and writes rows 2000·t … of its result. The body's arithmetic acts on every
  row by itself, so what point t writes back is block t of ONE whole-array function of the three arrays as the region
  finds them; the 50 blocks tile the result, so after the region the result array is that function.
-/
import proofs.«162165_j5927054869163_1_alg».proof.Proof.Gen.KernelIdeal.Frame
import proofs.«162165_j5927054869163_1_alg».proof.Proof.LibScaledRows

set_option maxRecDepth 16384

noncomputable section

namespace Cert.KernelIdeal.Layer1Comb

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)
open Cert.ScaledRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on the loaded blocks is the floored combination step of the blocks, the bias read off
    the one-row block. -/
theorem pay (x0 : Vec Ideal S2000x128 .f32) (x1 : Vec Ideal S2000x1 .f32) (x2 : Vec Ideal S1x128 .f32) :
    k1_pay1 x0 x1 x2 = scaledPlusMax x0 x1 (rowVec x2) (Scalar.ofBits (F := Ideal) .f32 0x00000000#32) := by
  unfold k1_pay1
  exact vec_scaledPlusMax x0 x1 x2 (rowVec x2) (fun _ => rfl) _ _ _ _ _ _

/-- The printed index maps, decided over the 50 grid points: the first operand, the degree column and the result
    move with the point along the rows; the third operand stays at its one block. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first operand's block at point `t` holds rows 2000·t … of its array. -/
theorem rows_0 (c : Dev nD) (t : Fin cfg1.N) : RowsAt (2000 * t.val) (iblk1 V c 0 t) (V c main_v25) := by
  intro p r j e
  obtain ⟨e0, e1, -⟩ := idx t
  show V c main_v25 (((cfg1.win 0).blk t).view.emb (ix2 p j)) = V c main_v25 (ix2 r j)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * j.val = j.val; omega

/-- The degree column's block at point `t` holds rows 2000·t … of the column. -/
theorem rows_1 (c : Dev nD) (t : Fin cfg1.N) : RowsAt (2000 * t.val) (iblk1 V c 1 t) (V c main_v14) := by
  intro p r j e
  obtain ⟨-, -, e0, e1, -⟩ := idx t
  show V c main_v14 (((cfg1.win 1).blk t).view.emb (ix2 p j)) = V c main_v14 (ix2 r j)
  refine congrArg _ (funext fun a => Fin.ext ?_)
  match a with
  | ⟨0, _⟩ => show win1_1.index t (0 : Fin 2) * 2000 + 1 * p.val = r.val; omega
  | ⟨1, _⟩ => show win1_1.index t (1 : Fin 2) * 1 + 1 * j.val = j.val; omega

/-- The third operand's block at every point is its whole array. -/
theorem whole_2 (c : Dev nD) (t : Fin cfg1.N) : iblk1 V c 2 t = V c main_v26 := by
  obtain ⟨-, -, -, -, e0, e1, -⟩ := idx t
  funext z
  show V c main_v26 (((cfg1.win 2).blk t).view.emb z) = V c main_v26 z
  refine congrArg _ (funext fun a => Fin.ext ?_)
  match a with
  | ⟨0, _⟩ => show win1_2.index t (0 : Fin 2) * 1 + 1 * (z 0).val = (z 0).val; omega
  | ⟨1, _⟩ => show win1_2.index t (1 : Fin 2) * 128 + 1 * (z 1).val = (z 1).val; omega

/-- What point `t` writes back is block `t` of the step applied to the whole arrays: row `p` of the block's result
    reads row `p` of the blocks only, which is row 2000·t + p of the arrays. -/
theorem flushed_eq (c : Dev nD) (t : Fin cfg1.N) :
    (dat1 V c).flushed 3 t
      = ((cfg1.win 3).blk t).view.read (Elt Ideal) (scaledPlusMax (V c main_v25) (V c main_v14) (rowVec (V c main_v26)) (Scalar.ofBits (F := Ideal) .f32 0x00000000#32)) := by
  show (cfg1.win 3).cut (grid1.coords t) ((dat1 V c).after 3 t) = _
  rw [after1_3]
  unfold out1_3
  rw [View.canon_unit_zero origin]
  simp only [View.ld_unit_zero (S := S2000x128) origin, View.ld_unit_zero (S := S2000x1) origin, View.ld_unit_zero (S := S1x128) origin]
  refine (pay (iblk1 V c 0 t) (iblk1 V c 1 t) (iblk1 V c 2 t)).trans ?_
  obtain ⟨-, -, -, -, -, -, e0, e1⟩ := idx t
  funext y
  refine (rowsAt_read (rowsAt_scaledPlusMax (rows_0 V c t) (rows_1 V c t) (rowVec (iblk1 V c 2 t)) _) y
    (((cfg1.win 3).blk t).view.emb y) ?_ ?_).trans ?_
  · show win1_3.index t (0 : Fin 2) * 2000 + 1 * (y 0).val = 2000 * t.val + (y 0).val; omega
  · show win1_3.index t (1 : Fin 2) * 128 + 1 * (y 1).val = (y 1).val; omega
  · rw [whole_2]; rfl

/-- An index of the result is in point `t`'s block iff each coordinate is in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- The blocks tile the result: row `r` is in the block of point `r / 2000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, -, -, e0, e1⟩ := idx t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE RESULT ARRAY after the region, for any contents `V` the region is entered at: the step applied to the three
    arrays as the region finds them. -/
theorem final (c : Dev nD) :
    (dat1 V c).arrAt 3 cfg1.N = scaledPlusMax (V c main_v25) (V c main_v14) (rowVec (V c main_v26)) (Scalar.ofBits (F := Ideal) .f32 0x00000000#32) :=
  (dat1 V c).arrAt_eq_of_cover 3 _ (fun t _ => flushed_eq V c t) cover

end Cert.KernelIdeal.Layer1Comb

end
-- ==== Proof.Layer2Proj.lean ====
/-
  Region 2 of the kernel's @main, the projection of layer 2: the rows of the layer's input scaled by the source-degree column, times the layer's
  128×64 weight matrix.

  The region walks 50 grid points; point t loads rows 2000·t … 2000·t + 1999 of its first operand and of the degree
  column, the whole of its third operand, and writes rows 2000·t … of its result. The body's arithmetic acts on every
  row by itself, so what point t writes back is block t of ONE whole-array function of the three arrays as the region
  finds them; the 50 blocks tile the result, so after the region the result array is that function.
-/
import proofs.«162165_j5927054869163_1_alg».proof.Proof.Gen.KernelIdeal.Frame
import proofs.«162165_j5927054869163_1_alg».proof.Proof.LibScaledRows

set_option maxRecDepth 16384

noncomputable section

namespace Cert.KernelIdeal.Layer2Proj

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)
open Cert.ScaledRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on the loaded blocks is the projection step of the blocks. -/
theorem pay (x0 : Vec Ideal S2000x128 .f32) (x1 : Vec Ideal S2000x1 .f32) (x2 : Vec Ideal S128x64 .f32) :
    k2_pay1 x0 x1 x2 = scaledProd x0 x1 x2 := by
  unfold k2_pay1
  exact mxu_scaledProd_cast x0 x1 x2 _ _ _ _

/-- The printed index maps, decided over the 50 grid points: the first operand, the degree column and the result
    move with the point along the rows; the third operand stays at its one block. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first operand's block at point `t` holds rows 2000·t … of its array. -/
theorem rows_0 (c : Dev nD) (t : Fin cfg2.N) : RowsAt (2000 * t.val) (iblk2 V c 0 t) (V c main_v27) := by
  intro p r j e
  obtain ⟨e0, e1, -⟩ := idx t
  show V c main_v27 (((cfg2.win 0).blk t).view.emb (ix2 p j)) = V c main_v27 (ix2 r j)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * j.val = j.val; omega

/-- The degree column's block at point `t` holds rows 2000·t … of the column. -/
theorem rows_1 (c : Dev nD) (t : Fin cfg2.N) : RowsAt (2000 * t.val) (iblk2 V c 1 t) (V c main_v12) := by
  intro p r j e
  obtain ⟨-, -, e0, e1, -⟩ := idx t
  show V c main_v12 (((cfg2.win 1).blk t).view.emb (ix2 p j)) = V c main_v12 (ix2 r j)
  refine congrArg _ (funext fun a => Fin.ext ?_)
  match a with
  | ⟨0, _⟩ => show win2_1.index t (0 : Fin 2) * 2000 + 1 * p.val = r.val; omega
  | ⟨1, _⟩ => show win2_1.index t (1 : Fin 2) * 1 + 1 * j.val = j.val; omega

/-- The third operand's block at every point is its whole array. -/
theorem whole_2 (c : Dev nD) (t : Fin cfg2.N) : iblk2 V c 2 t = V c main_arg5 := by
  obtain ⟨-, -, -, -, e0, e1, -⟩ := idx t
  funext z
  show V c main_arg5 (((cfg2.win 2).blk t).view.emb z) = V c main_arg5 z
  refine congrArg _ (funext fun a => Fin.ext ?_)
  match a with
  | ⟨0, _⟩ => show win2_2.index t (0 : Fin 2) * 128 + 1 * (z 0).val = (z 0).val; omega
  | ⟨1, _⟩ => show win2_2.index t (1 : Fin 2) * 64 + 1 * (z 1).val = (z 1).val; omega

/-- What point `t` writes back is block `t` of the step applied to the whole arrays: row `p` of the block's result
    reads row `p` of the blocks only, which is row 2000·t + p of the arrays. -/
theorem flushed_eq (c : Dev nD) (t : Fin cfg2.N) :
    (dat2 V c).flushed 3 t
      = ((cfg2.win 3).blk t).view.read (Elt Ideal) (scaledProd (V c main_v27) (V c main_v12) (V c main_arg5)) := by
  show (cfg2.win 3).cut (grid2.coords t) ((dat2 V c).after 3 t) = _
  rw [after2_3]
  unfold out2_3
  rw [View.canon_unit_zero origin]
  simp only [View.ld_unit_zero (S := S2000x128) origin, View.ld_unit_zero (S := S2000x1) origin, View.ld_unit_zero (S := S128x64) origin]
  refine (pay (iblk2 V c 0 t) (iblk2 V c 1 t) (iblk2 V c 2 t)).trans ?_
  obtain ⟨-, -, -, -, -, -, e0, e1⟩ := idx t
  funext y
  refine (rowsAt_read (rowsAt_scaledProd (rows_0 V c t) (rows_1 V c t) (iblk2 V c 2 t)) y
    (((cfg2.win 3).blk t).view.emb y) ?_ ?_).trans ?_
  · show win2_3.index t (0 : Fin 2) * 2000 + 1 * (y 0).val = 2000 * t.val + (y 0).val; omega
  · show win2_3.index t (1 : Fin 2) * 64 + 1 * (y 1).val = (y 1).val; omega
  · rw [whole_2]; rfl

/-- An index of the result is in point `t`'s block iff each coordinate is in the block's range on its axis. -/
theorem mem_blk (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v28).slice (win2_3.rect t)).set ↔ _
  rw [View.set_slice_whole, Rect.mem_set_unit]
  exact Iff.rfl

/-- The blocks tile the result: row `r` is in the block of point `r / 2000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, -, -, e0, e1⟩ := idx t
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- THE RESULT ARRAY after the region, for any contents `V` the region is entered at: the step applied to the three
    arrays as the region finds them. -/
theorem final (c : Dev nD) :
    (dat2 V c).arrAt 3 cfg2.N = scaledProd (V c main_v27) (V c main_v12) (V c main_arg5) :=
  (dat2 V c).arrAt_eq_of_cover 3 _ (fun t _ => flushed_eq V c t) cover

end Cert.KernelIdeal.Layer2Proj

end
-- ==== Proof.Layer2Comb.lean ====
/-
  Region 3 of the kernel's @main, the combination of layer 2: the rows of the aggregated features scaled by the destination-degree column, plus the
  bias row, floored at zero.

  The region walks 50 grid points; point t loads rows 2000·t … 2000·t + 1999 of its first operand and of the degree
  column, the whole of its third operand, and writes rows 2000·t … of its result. The body's arithmetic acts on every
  row by itself, so what point t writes back is block t of ONE whole-array function of the three arrays as the region
  finds them; the 50 blocks tile the result, so after the region the result array is that function.
-/
import proofs.«162165_j5927054869163_1_alg».proof.Proof.Gen.KernelIdeal.Frame
import proofs.«162165_j5927054869163_1_alg».proof.Proof.LibScaledRows

set_option maxRecDepth 16384

noncomputable section

namespace Cert.KernelIdeal.Layer2Comb

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)
open Cert.ScaledRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on the loaded blocks is the floored combination step of the blocks, the bias read off
    the one-row block. -/
theorem pay (x0 : Vec Ideal S2000x64 .f32) (x1 : Vec Ideal S2000x1 .f32) (x2 : Vec Ideal S1x64 .f32) :
    k3_pay1 x0 x1 x2 = scaledPlusMax x0 x1 (rowVec x2) (Scalar.ofBits (F := Ideal) .f32 0x00000000#32) := by
  unfold k3_pay1
  exact vec_scaledPlusMax x0 x1 x2 (rowVec x2) (fun _ => rfl) _ _ _ _ _ _

/-- The printed index maps, decided over the 50 grid points: the first operand, the degree column and the result
    move with the point along the rows; the third operand stays at its one block. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The first operand's block at point `t` holds rows 2000·t … of its array. -/
theorem rows_0 (c : Dev nD) (t : Fin cfg3.N) : RowsAt (2000 * t.val) (iblk3 V c 0 t) (V c main_v38) := by
  intro p r j e
  obtain ⟨e0, e1, -⟩ := idx t
  show V c main_v38 (((cfg3.win 0).blk t).view.emb (ix2 p j)) = V c main_v38 (ix2 r j)
  refine congrArg _ (funext fun a => Fin.ext ?_)
  match a with
  | ⟨0, _⟩ => show win3_0.index t (0 : Fin 2) * 2000 + 1 * p.val = r.val; omega
  | ⟨1, _⟩ => show win3_0.index t (1 : Fin 2) * 64 + 1 * j.val = j.val; omega

/-- The degree column's block at point `t` holds rows 2000·t … of the column. -/
theorem rows_1 (c : Dev nD) (t : Fin cfg3.N) : RowsAt (2000 * t.val) (iblk3 V c 1 t) (V c main_v14) := by
  intro p r j e
  obtain ⟨-, -, e0, e1, -⟩ := idx t
  show V c main_v14 (((cfg3.win 1).blk t).view.emb (ix2 p j)) = V c main_v14 (ix2 r j)
  refine congrArg _ (funext fun a => Fin.ext ?_)
  match a with
  | ⟨0, _⟩ => show win3_1.index t (0 : Fin 2) * 2000 + 1 * p.val = r.val; omega
  | ⟨1, _⟩ => show win3_1.index t (1 : Fin 2) * 1 + 1 * j.val = j.val; omega

/-- The third operand's block at every point is its whole array. -/
theorem whole_2 (c : Dev nD) (t : Fin cfg3.N) : iblk3 V c 2 t = V c main_v39 := by
  obtain ⟨-, -, -, -, e0, e1, -⟩ := idx t
  funext z
  show V c main_v39 (((cfg3.win 2).blk t).view.emb z) = V c main_v39 z
  refine congrArg _ (funext fun a => Fin.ext ?_)
  match a with
  | ⟨0, _⟩ => show win3_2.index t (0 : Fin 2) * 1 + 1 * (z 0).val = (z 0).val; omega
  | ⟨1, _⟩ => show win3_2.index t (1 : Fin 2) * 64 + 1 * (z 1).val = (z 1).val; omega

/-- What point `t` writes back is block `t` of the step applied to the whole arrays: row `p` of the block's result
    reads row `p` of the blocks only, which is row 2000·t + p of the arrays. -/
theorem flushed_eq (c : Dev nD) (t : Fin cfg3.N) :
    (dat3 V c).flushed 3 t
      = ((cfg3.win 3).blk t).view.read (Elt Ideal) (scaledPlusMax (V c main_v38) (V c main_v14) (rowVec (V c main_v39)) (Scalar.ofBits (F := Ideal) .f32 0x00000000#32)) := by
  show (cfg3.win 3).cut (grid3.coords t) ((dat3 V c).after 3 t) = _
  rw [after3_3]
  unfold out3_3
  rw [View.canon_unit_zero origin]
  simp only [View.ld_unit_zero (S := S2000x64) origin, View.ld_unit_zero (S := S2000x1) origin, View.ld_unit_zero (S := S1x64) origin]
  refine (pay (iblk3 V c 0 t) (iblk3 V c 1 t) (iblk3 V c 2 t)).trans ?_
  obtain ⟨-, -, -, -, -, -, e0, e1⟩ := idx t
  funext y
  refine (rowsAt_read (rowsAt_scaledPlusMax (rows_0 V c t) (rows_1 V c t) (rowVec (iblk3 V c 2 t)) _) y
    (((cfg3.win 3).blk t).view.emb y) ?_ ?_).trans ?_
  · show win3_3.index t (0 : Fin 2) * 2000 + 1 * (y 0).val = 2000 * t.val + (y 0).val; omega
  · show win3_3.index t (1 : Fin 2) * 64 + 1 * (y 1).val = (y 1).val; omega
  · rw [whole_2]; rfl

/-- An index of the result is in point `t`'s block iff each coordinate is in the block's range on its axis. -/
theorem mem_blk (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v40).slice (win3_3.rect t)).set ↔ _
  rw [View.set_slice_whole, Rect.mem_set_unit]
  exact Iff.rfl

/-- The blocks tile the result: row `r` is in the block of point `r / 2000`. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  obtain ⟨-, -, -, -, -, -, e0, e1⟩ := idx t
  have ht : t.val = (i 0).val / 2000 := rfl
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- THE RESULT ARRAY after the region, for any contents `V` the region is entered at: the step applied to the three
    arrays as the region finds them. -/
theorem final (c : Dev nD) :
    (dat3 V c).arrAt 3 cfg3.N = scaledPlusMax (V c main_v38) (V c main_v14) (rowVec (V c main_v39)) (Scalar.ofBits (F := Ideal) .f32 0x00000000#32) :=
  (dat3 V c).arrAt_eq_of_cover 3 _ (fun t _ => flushed_eq V c t) cover

end Cert.KernelIdeal.Layer2Comb

end
-- ==== Proof.Layer3Proj.lean ====
/-
  Region 4 of the kernel's @main, the projection of layer 3: the rows of the layer's input scaled by the source-degree column, times the layer's
  64×16 weight matrix.

  The region walks 50 grid points; point t loads rows 2000·t … 2000·t + 1999 of its first operand and of the degree
  column, the whole of its third operand, and writes rows 2000·t … of its result. The body's arithmetic acts on every
  row by itself, so what point t writes back is block t of ONE whole-array function of the three arrays as the region
  finds them; the 50 blocks tile the result, so after the region the result array is that function.
-/
import proofs.«162165_j5927054869163_1_alg».proof.Proof.Gen.KernelIdeal.Frame
import proofs.«162165_j5927054869163_1_alg».proof.Proof.LibScaledRows

set_option maxRecDepth 16384

noncomputable section

namespace Cert.KernelIdeal.Layer3Proj

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)
open Cert.ScaledRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on the loaded blocks is the projection step of the blocks. -/
theorem pay (x0 : Vec Ideal S2000x64 .f32) (x1 : Vec Ideal S2000x1 .f32) (x2 : Vec Ideal S64x16 .f32) :
    k4_pay1 x0 x1 x2 = scaledProd x0 x1 x2 := by
  unfold k4_pay1
  exact mxu_scaledProd_cast x0 x1 x2 _ _ _ _

/-- The printed index maps, decided over the 50 grid points: the first operand, the degree column and the result
    move with the point along the rows; the third operand stays at its one block. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The first operand's block at point `t` holds rows 2000·t … of its array. -/
theorem rows_0 (c : Dev nD) (t : Fin cfg4.N) : RowsAt (2000 * t.val) (iblk4 V c 0 t) (V c main_v40) := by
  intro p r j e
  obtain ⟨e0, e1, -⟩ := idx t
  show V c main_v40 (((cfg4.win 0).blk t).view.emb (ix2 p j)) = V c main_v40 (ix2 r j)
  refine congrArg _ (funext fun a => Fin.ext ?_)
  match a with
  | ⟨0, _⟩ => show win4_0.index t (0 : Fin 2) * 2000 + 1 * p.val = r.val; omega
  | ⟨1, _⟩ => show win4_0.index t (1 : Fin 2) * 64 + 1 * j.val = j.val; omega

/-- The degree column's block at point `t` holds rows 2000·t … of the column. -/
theorem rows_1 (c : Dev nD) (t : Fin cfg4.N) : RowsAt (2000 * t.val) (iblk4 V c 1 t) (V c main_v12) := by
  intro p r j e
  obtain ⟨-, -, e0, e1, -⟩ := idx t
  show V c main_v12 (((cfg4.win 1).blk t).view.emb (ix2 p j)) = V c main_v12 (ix2 r j)
  refine congrArg _ (funext fun a => Fin.ext ?_)
  match a with
  | ⟨0, _⟩ => show win4_1.index t (0 : Fin 2) * 2000 + 1 * p.val = r.val; omega
  | ⟨1, _⟩ => show win4_1.index t (1 : Fin 2) * 1 + 1 * j.val = j.val; omega

/-- The third operand's block at every point is its whole array. -/
theorem whole_2 (c : Dev nD) (t : Fin cfg4.N) : iblk4 V c 2 t = V c main_arg7 := by
  obtain ⟨-, -, -, -, e0, e1, -⟩ := idx t
  funext z
  show V c main_arg7 (((cfg4.win 2).blk t).view.emb z) = V c main_arg7 z
  refine congrArg _ (funext fun a => Fin.ext ?_)
  match a with
  | ⟨0, _⟩ => show win4_2.index t (0 : Fin 2) * 64 + 1 * (z 0).val = (z 0).val; omega
  | ⟨1, _⟩ => show win4_2.index t (1 : Fin 2) * 16 + 1 * (z 1).val = (z 1).val; omega

/-- What point `t` writes back is block `t` of the step applied to the whole arrays: row `p` of the block's result
    reads row `p` of the blocks only, which is row 2000·t + p of the arrays. -/
theorem flushed_eq (c : Dev nD) (t : Fin cfg4.N) :
    (dat4 V c).flushed 3 t
      = ((cfg4.win 3).blk t).view.read (Elt Ideal) (scaledProd (V c main_v40) (V c main_v12) (V c main_arg7)) := by
  show (cfg4.win 3).cut (grid4.coords t) ((dat4 V c).after 3 t) = _
  rw [after4_3]
  unfold out4_3
  rw [View.canon_unit_zero origin]
  simp only [View.ld_unit_zero (S := S2000x64) origin, View.ld_unit_zero (S := S2000x1) origin, View.ld_unit_zero (S := S64x16) origin]
  refine (pay (iblk4 V c 0 t) (iblk4 V c 1 t) (iblk4 V c 2 t)).trans ?_
  obtain ⟨-, -, -, -, -, -, e0, e1⟩ := idx t
  funext y
  refine (rowsAt_read (rowsAt_scaledProd (rows_0 V c t) (rows_1 V c t) (iblk4 V c 2 t)) y
    (((cfg4.win 3).blk t).view.emb y) ?_ ?_).trans ?_
  · show win4_3.index t (0 : Fin 2) * 2000 + 1 * (y 0).val = 2000 * t.val + (y 0).val; omega
  · show win4_3.index t (1 : Fin 2) * 16 + 1 * (y 1).val = (y 1).val; omega
  · rw [whole_2]; rfl

/-- An index of the result is in point `t`'s block iff each coordinate is in the block's range on its axis. -/
theorem mem_blk (t : Fin cfg4.N) (i : S100000x16.Idx) :
    i ∈ ((cfg4.win 3).blk t).view.set ↔ ∀ a : Fin 2, win4_3.index t a * S2000x16.size a ≤ (i a).val ∧ (i a).val < win4_3.index t a * S2000x16.size a + S2000x16.size a := by
  show i ∈ ((View.whole main_v41).slice (win4_3.rect t)).set ↔ _
  rw [View.set_slice_whole, Rect.mem_set_unit]
  exact Iff.rfl

/-- The blocks tile the result: row `r` is in the block of point `r / 2000`. -/
theorem cover (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hN : cfg4.N = 50 := N_4
  let t : Fin cfg4.N := ⟨(i 0).val / 2000, by rw [hN]; omega⟩
  obtain ⟨-, -, -, -, -, -, e0, e1⟩ := idx t
  have ht : t.val = (i 0).val / 2000 := rfl
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 16 ≤ (i 1).val ∧ (i 1).val < win4_3.index t (1 : Fin 2) * 16 + 16; omega

/-- THE RESULT ARRAY after the region, for any contents `V` the region is entered at: the step applied to the three
    arrays as the region finds them. -/
theorem final (c : Dev nD) :
    (dat4 V c).arrAt 3 cfg4.N = scaledProd (V c main_v40) (V c main_v12) (V c main_arg7) :=
  (dat4 V c).arrAt_eq_of_cover 3 _ (fun t _ => flushed_eq V c t) cover

end Cert.KernelIdeal.Layer3Proj

end
-- ==== Proof.Layer3Comb.lean ====
/-
  Region 5 of the kernel's @main, the combination of layer 3: the rows of the aggregated features scaled by the destination-degree column, plus the
  bias row, floored at zero.

  The region walks 50 grid points; point t loads rows 2000·t … 2000·t + 1999 of its first operand and of the degree
  column, the whole of its third operand, and writes rows 2000·t … of its result. The body's arithmetic acts on every
  row by itself, so what point t writes back is block t of ONE whole-array function of the three arrays as the region
  finds them; the 50 blocks tile the result, so after the region the result array is that function.
-/
import proofs.«162165_j5927054869163_1_alg».proof.Proof.Gen.KernelIdeal.Frame
import proofs.«162165_j5927054869163_1_alg».proof.Proof.LibScaledRows

set_option maxRecDepth 16384

noncomputable section

namespace Cert.KernelIdeal.Layer3Comb

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)
open Cert.ScaledRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on the loaded blocks is the floored combination step of the blocks, the bias read off
    the one-row block. -/
theorem pay (x0 : Vec Ideal S2000x16 .f32) (x1 : Vec Ideal S2000x1 .f32) (x2 : Vec Ideal S1x16 .f32) :
    k5_pay1 x0 x1 x2 = scaledPlusMax x0 x1 (rowVec x2) (Scalar.ofBits (F := Ideal) .f32 0x00000000#32) := by
  unfold k5_pay1
  exact vec_scaledPlusMax x0 x1 x2 (rowVec x2) (fun _ => rfl) _ _ _ _ _ _

/-- The printed index maps, decided over the 50 grid points: the first operand, the degree column and the result
    move with the point along the rows; the third operand stays at its one block. -/
theorem idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The first operand's block at point `t` holds rows 2000·t … of its array. -/
theorem rows_0 (c : Dev nD) (t : Fin cfg5.N) : RowsAt (2000 * t.val) (iblk5 V c 0 t) (V c main_v51) := by
  intro p r j e
  obtain ⟨e0, e1, -⟩ := idx t
  show V c main_v51 (((cfg5.win 0).blk t).view.emb (ix2 p j)) = V c main_v51 (ix2 r j)
  refine congrArg _ (funext fun a => Fin.ext ?_)
  match a with
  | ⟨0, _⟩ => show win5_0.index t (0 : Fin 2) * 2000 + 1 * p.val = r.val; omega
  | ⟨1, _⟩ => show win5_0.index t (1 : Fin 2) * 16 + 1 * j.val = j.val; omega

/-- The degree column's block at point `t` holds rows 2000·t … of the column. -/
theorem rows_1 (c : Dev nD) (t : Fin cfg5.N) : RowsAt (2000 * t.val) (iblk5 V c 1 t) (V c main_v14) := by
  intro p r j e
  obtain ⟨-, -, e0, e1, -⟩ := idx t
  show V c main_v14 (((cfg5.win 1).blk t).view.emb (ix2 p j)) = V c main_v14 (ix2 r j)
  refine congrArg _ (funext fun a => Fin.ext ?_)
  match a with
  | ⟨0, _⟩ => show win5_1.index t (0 : Fin 2) * 2000 + 1 * p.val = r.val; omega
  | ⟨1, _⟩ => show win5_1.index t (1 : Fin 2) * 1 + 1 * j.val = j.val; omega

/-- The third operand's block at every point is its whole array. -/
theorem whole_2 (c : Dev nD) (t : Fin cfg5.N) : iblk5 V c 2 t = V c main_v52 := by
  obtain ⟨-, -, -, -, e0, e1, -⟩ := idx t
  funext z
  show V c main_v52 (((cfg5.win 2).blk t).view.emb z) = V c main_v52 z
  refine congrArg _ (funext fun a => Fin.ext ?_)
  match a with
  | ⟨0, _⟩ => show win5_2.index t (0 : Fin 2) * 1 + 1 * (z 0).val = (z 0).val; omega
  | ⟨1, _⟩ => show win5_2.index t (1 : Fin 2) * 16 + 1 * (z 1).val = (z 1).val; omega

/-- What point `t` writes back is block `t` of the step applied to the whole arrays: row `p` of the block's result
    reads row `p` of the blocks only, which is row 2000·t + p of the arrays. -/
theorem flushed_eq (c : Dev nD) (t : Fin cfg5.N) :
    (dat5 V c).flushed 3 t
      = ((cfg5.win 3).blk t).view.read (Elt Ideal) (scaledPlusMax (V c main_v51) (V c main_v14) (rowVec (V c main_v52)) (Scalar.ofBits (F := Ideal) .f32 0x00000000#32)) := by
  show (cfg5.win 3).cut (grid5.coords t) ((dat5 V c).after 3 t) = _
  rw [after5_3]
  unfold out5_3
  rw [View.canon_unit_zero origin]
  simp only [View.ld_unit_zero (S := S2000x16) origin, View.ld_unit_zero (S := S2000x1) origin, View.ld_unit_zero (S := S1x16) origin]
  refine (pay (iblk5 V c 0 t) (iblk5 V c 1 t) (iblk5 V c 2 t)).trans ?_
  obtain ⟨-, -, -, -, -, -, e0, e1⟩ := idx t
  funext y
  refine (rowsAt_read (rowsAt_scaledPlusMax (rows_0 V c t) (rows_1 V c t) (rowVec (iblk5 V c 2 t)) _) y
    (((cfg5.win 3).blk t).view.emb y) ?_ ?_).trans ?_
  · show win5_3.index t (0 : Fin 2) * 2000 + 1 * (y 0).val = 2000 * t.val + (y 0).val; omega
  · show win5_3.index t (1 : Fin 2) * 16 + 1 * (y 1).val = (y 1).val; omega
  · rw [whole_2]; rfl

/-- An index of the result is in point `t`'s block iff each coordinate is in the block's range on its axis. -/
theorem mem_blk (t : Fin cfg5.N) (i : S100000x16.Idx) :
    i ∈ ((cfg5.win 3).blk t).view.set ↔ ∀ a : Fin 2, win5_3.index t a * S2000x16.size a ≤ (i a).val ∧ (i a).val < win5_3.index t a * S2000x16.size a + S2000x16.size a := by
  show i ∈ ((View.whole main_v53).slice (win5_3.rect t)).set ↔ _
  rw [View.set_slice_whole, Rect.mem_set_unit]
  exact Iff.rfl

/-- The blocks tile the result: row `r` is in the block of point `r / 2000`. -/
theorem cover (i : S100000x16.Idx) :
    ∃ t : Fin cfg5.N, (cfg5.win 3).flush t = true ∧ i ∈ ((cfg5.win 3).blk t).view.set := by
  have hi0 : (i 0).val < 100000 := (i 0).isLt
  have hi1 : (i 1).val < 16 := (i 1).isLt
  have hN : cfg5.N = 50 := N_5
  let t : Fin cfg5.N := ⟨(i 0).val / 2000, by rw [hN]; omega⟩
  obtain ⟨-, -, -, -, -, -, e0, e1⟩ := idx t
  have ht : t.val = (i 0).val / 2000 := rfl
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 16 ≤ (i 1).val ∧ (i 1).val < win5_3.index t (1 : Fin 2) * 16 + 16; omega

/-- THE RESULT ARRAY after the region, for any contents `V` the region is entered at: the step applied to the three
    arrays as the region finds them. -/
theorem final (c : Dev nD) :
    (dat5 V c).arrAt 3 cfg5.N = scaledPlusMax (V c main_v51) (V c main_v14) (rowVec (V c main_v52)) (Scalar.ofBits (F := Ideal) .f32 0x00000000#32) :=
  (dat5 V c).arrAt_eq_of_cover 3 _ (fun t _ => flushed_eq V c t) cover

end Cert.KernelIdeal.Layer3Comb

end
-- ==== Proof.Layer4Proj.lean ====
/-
  Region 6 of the kernel's @main, the projection of layer 4: the rows of the layer's input scaled by the source-degree column, times the layer's
  16×40 weight matrix.

  The region walks 50 grid points; point t loads rows 2000·t … 2000·t + 1999 of its first operand and of the degree
  column, the whole of its third operand, and writes rows 2000·t … of its result. The body's arithmetic acts on every
  row by itself, so what point t writes back is block t of ONE whole-array function of the three arrays as the region
  finds them; the 50 blocks tile the result, so after the region the result array is that function.
-/
import proofs.«162165_j5927054869163_1_alg».proof.Proof.Gen.KernelIdeal.Frame
import proofs.«162165_j5927054869163_1_alg».proof.Proof.LibScaledRows

set_option maxRecDepth 16384

noncomputable section

namespace Cert.KernelIdeal.Layer4Proj

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)
open Cert.ScaledRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on the loaded blocks is the projection step of the blocks. -/
theorem pay (x0 : Vec Ideal S2000x16 .f32) (x1 : Vec Ideal S2000x1 .f32) (x2 : Vec Ideal S16x40 .f32) :
    k6_pay1 x0 x1 x2 = scaledProd x0 x1 x2 := by
  unfold k6_pay1
  exact mxu_scaledProd_cast x0 x1 x2 _ _ _ _

/-- The printed index maps, decided over the 50 grid points: the first operand, the degree column and the result
    move with the point along the rows; the third operand stays at its one block. -/
theorem idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The first operand's block at point `t` holds rows 2000·t … of its array. -/
theorem rows_0 (c : Dev nD) (t : Fin cfg6.N) : RowsAt (2000 * t.val) (iblk6 V c 0 t) (V c main_v53) := by
  intro p r j e
  obtain ⟨e0, e1, -⟩ := idx t
  show V c main_v53 (((cfg6.win 0).blk t).view.emb (ix2 p j)) = V c main_v53 (ix2 r j)
  refine congrArg _ (funext fun a => Fin.ext ?_)
  match a with
  | ⟨0, _⟩ => show win6_0.index t (0 : Fin 2) * 2000 + 1 * p.val = r.val; omega
  | ⟨1, _⟩ => show win6_0.index t (1 : Fin 2) * 16 + 1 * j.val = j.val; omega

/-- The degree column's block at point `t` holds rows 2000·t … of the column. -/
theorem rows_1 (c : Dev nD) (t : Fin cfg6.N) : RowsAt (2000 * t.val) (iblk6 V c 1 t) (V c main_v12) := by
  intro p r j e
  obtain ⟨-, -, e0, e1, -⟩ := idx t
  show V c main_v12 (((cfg6.win 1).blk t).view.emb (ix2 p j)) = V c main_v12 (ix2 r j)
  refine congrArg _ (funext fun a => Fin.ext ?_)
  match a with
  | ⟨0, _⟩ => show win6_1.index t (0 : Fin 2) * 2000 + 1 * p.val = r.val; omega
  | ⟨1, _⟩ => show win6_1.index t (1 : Fin 2) * 1 + 1 * j.val = j.val; omega

/-- The third operand's block at every point is its whole array. -/
theorem whole_2 (c : Dev nD) (t : Fin cfg6.N) : iblk6 V c 2 t = V c main_arg9 := by
  obtain ⟨-, -, -, -, e0, e1, -⟩ := idx t
  funext z
  show V c main_arg9 (((cfg6.win 2).blk t).view.emb z) = V c main_arg9 z
  refine congrArg _ (funext fun a => Fin.ext ?_)
  match a with
  | ⟨0, _⟩ => show win6_2.index t (0 : Fin 2) * 16 + 1 * (z 0).val = (z 0).val; omega
  | ⟨1, _⟩ => show win6_2.index t (1 : Fin 2) * 40 + 1 * (z 1).val = (z 1).val; omega

/-- What point `t` writes back is block `t` of the step applied to the whole arrays: row `p` of the block's result
    reads row `p` of the blocks only, which is row 2000·t + p of the arrays. -/
theorem flushed_eq (c : Dev nD) (t : Fin cfg6.N) :
    (dat6 V c).flushed 3 t
      = ((cfg6.win 3).blk t).view.read (Elt Ideal) (scaledProd (V c main_v53) (V c main_v12) (V c main_arg9)) := by
  show (cfg6.win 3).cut (grid6.coords t) ((dat6 V c).after 3 t) = _
  rw [after6_3]
  unfold out6_3
  rw [View.canon_unit_zero origin]
  simp only [View.ld_unit_zero (S := S2000x16) origin, View.ld_unit_zero (S := S2000x1) origin, View.ld_unit_zero (S := S16x40) origin]
  refine (pay (iblk6 V c 0 t) (iblk6 V c 1 t) (iblk6 V c 2 t)).trans ?_
  obtain ⟨-, -, -, -, -, -, e0, e1⟩ := idx t
  funext y
  refine (rowsAt_read (rowsAt_scaledProd (rows_0 V c t) (rows_1 V c t) (iblk6 V c 2 t)) y
    (((cfg6.win 3).blk t).view.emb y) ?_ ?_).trans ?_
  · show win6_3.index t (0 : Fin 2) * 2000 + 1 * (y 0).val = 2000 * t.val + (y 0).val; omega
  · show win6_3.index t (1 : Fin 2) * 40 + 1 * (y 1).val = (y 1).val; omega
  · rw [whole_2]; rfl

/-- An index of the result is in point `t`'s block iff each coordinate is in the block's range on its axis. -/
theorem mem_blk (t : Fin cfg6.N) (i : S100000x40.Idx) :
    i ∈ ((cfg6.win 3).blk t).view.set ↔ ∀ a : Fin 2, win6_3.index t a * S2000x40.size a ≤ (i a).val ∧ (i a).val < win6_3.index t a * S2000x40.size a + S2000x40.size a := by
  show i ∈ ((View.whole main_v54).slice (win6_3.rect t)).set ↔ _
  rw [View.set_slice_whole, Rect.mem_set_unit]
  exact Iff.rfl

/-- The blocks tile the result: row `r` is in the block of point `r / 2000`. -/
theorem cover (i : S100000x40.Idx) :
    ∃ t : Fin cfg6.N, (cfg6.win 3).flush t = true ∧ i ∈ ((cfg6.win 3).blk t).view.set := by
  have hi0 : (i 0).val < 100000 := (i 0).isLt
  have hi1 : (i 1).val < 40 := (i 1).isLt
  have hN : cfg6.N = 50 := N_6
  let t : Fin cfg6.N := ⟨(i 0).val / 2000, by rw [hN]; omega⟩
  obtain ⟨-, -, -, -, -, -, e0, e1⟩ := idx t
  have ht : t.val = (i 0).val / 2000 := rfl
  refine ⟨t, flush6_3 t, ?_⟩
  rw [mem_blk]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 40 ≤ (i 1).val ∧ (i 1).val < win6_3.index t (1 : Fin 2) * 40 + 40; omega

/-- THE RESULT ARRAY after the region, for any contents `V` the region is entered at: the step applied to the three
    arrays as the region finds them. -/
theorem final (c : Dev nD) :
    (dat6 V c).arrAt 3 cfg6.N = scaledProd (V c main_v53) (V c main_v12) (V c main_arg9) :=
  (dat6 V c).arrAt_eq_of_cover 3 _ (fun t _ => flushed_eq V c t) cover

end Cert.KernelIdeal.Layer4Proj

end
-- ==== Proof.Layer4Comb.lean ====
/-
  Region 7 of the kernel's @main, the combination of layer 4 (the last, with no floor): the rows of the aggregated features scaled by the
  destination-degree column, plus the bias row.

  The region walks 50 grid points; point t loads rows 2000·t … 2000·t + 1999 of its first operand and of the degree
  column, the whole of its third operand, and writes rows 2000·t … of its result. The body's arithmetic acts on every
  row by itself, so what point t writes back is block t of ONE whole-array function of the three arrays as the region
  finds them; the 50 blocks tile the result, so after the region the result array is that function.
-/
import proofs.«162165_j5927054869163_1_alg».proof.Proof.Gen.KernelIdeal.Frame
import proofs.«162165_j5927054869163_1_alg».proof.Proof.LibScaledRows

set_option maxRecDepth 16384

noncomputable section

namespace Cert.KernelIdeal.Layer4Comb

open Cert.KernelIdeal Cert.KernelIdeal.Gen
open Idealize.ShloMosaic Idealize.ShloMosaic.TcCoe Idealize.ShloMosaic.ValueIdx Idealize.SL.Sem
open Idealize.ShloMosaic.Pipeline (Dat)
open Cert.Bridge (RowsAt)
open Cert.ScaledRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on the loaded blocks is the combination step of the blocks, the bias read off the
    one-row block. -/
theorem pay (x0 : Vec Ideal S2000x40 .f32) (x1 : Vec Ideal S2000x1 .f32) (x2 : Vec Ideal S1x40 .f32) :
    k7_pay1 x0 x1 x2 = scaledPlus x0 x1 (rowVec x2) := by
  unfold k7_pay1
  exact vec_scaledPlus x0 x1 x2 (rowVec x2) (fun _ => rfl) _ _ _ _ _

/-- The printed index maps, decided over the 50 grid points: the first operand, the degree column and the result
    move with the point along the rows; the third operand stays at its one block. -/
theorem idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The first operand's block at point `t` holds rows 2000·t … of its array. -/
theorem rows_0 (c : Dev nD) (t : Fin cfg7.N) : RowsAt (2000 * t.val) (iblk7 V c 0 t) (V c main_v64) := by
  intro p r j e
  obtain ⟨e0, e1, -⟩ := idx t
  show V c main_v64 (((cfg7.win 0).blk t).view.emb (ix2 p j)) = V c main_v64 (ix2 r j)
  refine congrArg _ (funext fun a => Fin.ext ?_)
  match a with
  | ⟨0, _⟩ => show win7_0.index t (0 : Fin 2) * 2000 + 1 * p.val = r.val; omega
  | ⟨1, _⟩ => show win7_0.index t (1 : Fin 2) * 40 + 1 * j.val = j.val; omega

/-- The degree column's block at point `t` holds rows 2000·t … of the column. -/
theorem rows_1 (c : Dev nD) (t : Fin cfg7.N) : RowsAt (2000 * t.val) (iblk7 V c 1 t) (V c main_v14) := by
  intro p r j e
  obtain ⟨-, -, e0, e1, -⟩ := idx t
  show V c main_v14 (((cfg7.win 1).blk t).view.emb (ix2 p j)) = V c main_v14 (ix2 r j)
  refine congrArg _ (funext fun a => Fin.ext ?_)
  match a with
  | ⟨0, _⟩ => show win7_1.index t (0 : Fin 2) * 2000 + 1 * p.val = r.val; omega
  | ⟨1, _⟩ => show win7_1.index t (1 : Fin 2) * 1 + 1 * j.val = j.val; omega

/-- The third operand's block at every point is its whole array. -/
theorem whole_2 (c : Dev nD) (t : Fin cfg7.N) : iblk7 V c 2 t = V c main_v65 := by
  obtain ⟨-, -, -, -, e0, e1, -⟩ := idx t
  funext z
  show V c main_v65 (((cfg7.win 2).blk t).view.emb z) = V c main_v65 z
  refine congrArg _ (funext fun a => Fin.ext ?_)
  match a with
  | ⟨0, _⟩ => show win7_2.index t (0 : Fin 2) * 1 + 1 * (z 0).val = (z 0).val; omega
  | ⟨1, _⟩ => show win7_2.index t (1 : Fin 2) * 40 + 1 * (z 1).val = (z 1).val; omega

/-- What point `t` writes back is block `t` of the step applied to the whole arrays: row `p` of the block's result
    reads row `p` of the blocks only, which is row 2000·t + p of the arrays. -/
theorem flushed_eq (c : Dev nD) (t : Fin cfg7.N) :
    (dat7 V c).flushed 3 t
      = ((cfg7.win 3).blk t).view.read (Elt Ideal) (scaledPlus (V c main_v64) (V c main_v14) (rowVec (V c main_v65))) := by
  show (cfg7.win 3).cut (grid7.coords t) ((dat7 V c).after 3 t) = _
  rw [after7_3]
  unfold out7_3
  rw [View.canon_unit_zero origin]
  simp only [View.ld_unit_zero (S := S2000x40) origin, View.ld_unit_zero (S := S2000x1) origin, View.ld_unit_zero (S := S1x40) origin]
  refine (pay (iblk7 V c 0 t) (iblk7 V c 1 t) (iblk7 V c 2 t)).trans ?_
  obtain ⟨-, -, -, -, -, -, e0, e1⟩ := idx t
  funext y
  refine (rowsAt_read (rowsAt_scaledPlus (rows_0 V c t) (rows_1 V c t) (rowVec (iblk7 V c 2 t))) y
    (((cfg7.win 3).blk t).view.emb y) ?_ ?_).trans ?_
  · show win7_3.index t (0 : Fin 2) * 2000 + 1 * (y 0).val = 2000 * t.val + (y 0).val; omega
  · show win7_3.index t (1 : Fin 2) * 40 + 1 * (y 1).val = (y 1).val; omega
  · rw [whole_2]; rfl

/-- An index of the result is in point `t`'s block iff each coordinate is in the block's range on its axis. -/
theorem mem_blk (t : Fin cfg7.N) (i : S100000x40.Idx) :
    i ∈ ((cfg7.win 3).blk t).view.set ↔ ∀ a : Fin 2, win7_3.index t a * S2000x40.size a ≤ (i a).val ∧ (i a).val < win7_3.index t a * S2000x40.size a + S2000x40.size a := by
  show i ∈ ((View.whole main_v66).slice (win7_3.rect t)).set ↔ _
  rw [View.set_slice_whole, Rect.mem_set_unit]
  exact Iff.rfl

/-- The blocks tile the result: row `r` is in the block of point `r / 2000`. -/
theorem cover (i : S100000x40.Idx) :
    ∃ t : Fin cfg7.N, (cfg7.win 3).flush t = true ∧ i ∈ ((cfg7.win 3).blk t).view.set := by
  have hi0 : (i 0).val < 100000 := (i 0).isLt
  have hi1 : (i 1).val < 40 := (i 1).isLt
  have hN : cfg7.N = 50 := N_7
  let t : Fin cfg7.N := ⟨(i 0).val / 2000, by rw [hN]; omega⟩
  obtain ⟨-, -, -, -, -, -, e0, e1⟩ := idx t
  have ht : t.val = (i 0).val / 2000 := rfl
  refine ⟨t, flush7_3 t, ?_⟩
  rw [mem_blk]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 40 ≤ (i 1).val ∧ (i 1).val < win7_3.index t (1 : Fin 2) * 40 + 40; omega

/-- THE RESULT ARRAY after the region, for any contents `V` the region is entered at: the step applied to the three
    arrays as the region finds them. -/
theorem final (c : Dev nD) :
    (dat7 V c).arrAt 3 cfg7.N = scaledPlus (V c main_v64) (V c main_v14) (rowVec (V c main_v65)) :=
  (dat7 V c).arrAt_eq_of_cover 3 _ (fun t _ => flushed_eq V c t) cover

end Cert.KernelIdeal.Layer4Comb

end
-- ==== Proof.FoldValue.lean ====
/-
  The kernel's arrays are the reference's stages.

  Layer by layer along the fold of the kernel's run: the projection region leaves the rows of the layer's input scaled
  by the source-degree column, times the layer's weights — the reference's `dot_general` stage, because the input is
  the reference's previous stage, the degree column is the reference's and the weights are as launched; the host stretch
  after it gathers along the source indices and scatter-adds along the destination indices with the very operations
  of the reference, and regards the bias vector as one row; the combination region leaves the rows of the aggregate
  scaled by the destination-degree column plus the bias, floored at zero in all layers but the last — the reference's
  stage again. After the fourth layer the kernel's result buffer holds the reference's result.
-/
import proofs.«162165_j5927054869163_1_alg».proof.Proof.FoldKept
import proofs.«162165_j5927054869163_1_alg».proof.Proof.RefStages
import proofs.«162165_j5927054869163_1_alg».proof.Proof.Layer1Proj
import proofs.«162165_j5927054869163_1_alg».proof.Proof.Layer1Comb
import proofs.«162165_j5927054869163_1_alg».proof.Proof.Layer2Proj
import proofs.«162165_j5927054869163_1_alg».proof.Proof.Layer2Comb
import proofs.«162165_j5927054869163_1_alg».proof.Proof.Layer3Proj
import proofs.«162165_j5927054869163_1_alg».proof.Proof.Layer3Comb
import proofs.«162165_j5927054869163_1_alg».proof.Proof.Layer4Proj
import proofs.«162165_j5927054869163_1_alg».proof.Proof.Layer4Comb

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ScaledRows

variable (m : (ℓ : Loc nD τ sig) → Buf (Elt Ideal) ℓ) (ρ : Dev nD → PrngReg)

/-! ## Layer 1 -/

/-- After the projection region the projected features are the reference's. -/
theorem s_proj1 (c : Dev nD) : W2 m ρ c (Proc.devRef .tc main_v15) = Cert.ReferenceIdeal.Read.val_main_v17 (F := Ideal) (m ((c.tc : Thread nD τ).loc main_arg0)) (m ((c.tc : Thread nD τ).loc main_arg1)) (m ((c.tc : Thread nD τ).loc main_arg3)) :=
  (W2_arr m ρ c 3).trans ((Cert.KernelIdeal.Layer1Proj.final (V1 m ρ) c).trans (by
    show scaledProd (W1 m ρ c (Proc.devRef .tc main_arg0)) (W1 m ρ c (Proc.devRef .tc main_v12)) (W1 m ρ c (Proc.devRef .tc main_arg3)) = _
    rw [(kept1 m ρ c).a0, (kept1 m ρ c).ns, (kept1 m ρ c).a3]
    exact (Cert.ReferenceIdeal.RefValue.proj1 _ _ _).symm))

set_option maxHeartbeats 1000000 in
/-- After the host stretch the aggregate over the edges is the reference's: the same gather and scatter-add of the same
    projected features along the same indices. -/
theorem s_agg1 (c : Dev nD) : W3 m ρ c (Proc.devRef .tc main_v25) = Cert.ReferenceIdeal.Read.val_main_v27 (F := Ideal) (m ((c.tc : Thread nD τ).loc main_arg0)) (m ((c.tc : Thread nD τ).loc main_arg1)) (m ((c.tc : Thread nD τ).loc main_arg2)) (m ((c.tc : Thread nD τ).loc main_arg3)) := by
  suffices h : ∀ q, Cert.ReferenceIdeal.Read.val_main_v27 (F := Ideal) (m ((c.tc : Thread nD τ).loc main_arg0)) (m ((c.tc : Thread nD τ).loc main_arg1)) (m ((c.tc : Thread nD τ).loc main_arg2)) (m ((c.tc : Thread nD τ).loc main_arg3)) = q → W3 m ρ c (Proc.devRef .tc main_v25) = q from h _ rfl
  intro q hq
  show StableHlo.after hostOps1 (W2 m ρ c) (Proc.devRef .tc main_v25) = q
  after_results
  rw [s_proj1 m ρ c, (kept2 m ρ c).a1, (kept2 m ρ c).a2]
  exact hq

/-- The bias vector regarded as one row by the host stretch, read back as a vector, is the bias as launched. -/
theorem s_bias1 (c : Dev nD) : rowVec (W3 m ρ c (Proc.devRef .tc main_v26)) = (m ((c.tc : Thread nD τ).loc main_arg4)) := by
  show rowVec (StableHlo.after hostOps1 (W2 m ρ c) (Proc.devRef .tc main_v26)) = _
  after_results
  show rowVec (shapeCast S1x128 (W2 m ρ c (Proc.devRef .tc main_arg4)) shapeCasts_S128_S1x128) = _
  rw [(kept2 m ρ c).a4]
  exact rowVec_shapeCast _ _

/-- After the combination region the layer's output is the reference's. -/
theorem s_comb1 (c : Dev nD) : W4 m ρ c (Proc.devRef .tc main_v27) = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W4_arr m ρ c 3).trans ((Cert.KernelIdeal.Layer1Comb.final (V3 m ρ) c).trans (by
    show scaledPlusMax (W3 m ρ c (Proc.devRef .tc main_v25)) (W3 m ρ c (Proc.devRef .tc main_v14)) (rowVec (W3 m ρ c (Proc.devRef .tc main_v26))) (Scalar.ofBits (F := Ideal) .f32 0x00000000#32) = _
    rw [s_agg1 m ρ c, (kept3 m ρ c).nd, s_bias1 m ρ c]
    exact (Cert.ReferenceIdeal.RefValue.comb1 _ _ _ _ _).symm))

/-! ## Layer 2 -/

/-- After the projection region the projected features are the reference's. -/
theorem s_proj2 (c : Dev nD) : W5 m ρ c (Proc.devRef .tc main_v28) = Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W5_arr m ρ c 3).trans ((Cert.KernelIdeal.Layer2Proj.final (V4 m ρ) c).trans (by
    show scaledProd (W4 m ρ c (Proc.devRef .tc main_v27)) (W4 m ρ c (Proc.devRef .tc main_v12)) (W4 m ρ c (Proc.devRef .tc main_arg5)) = _
    rw [s_comb1 m ρ c, (kept4 m ρ c).ns, (kept4 m ρ c).a5]
    exact (Cert.ReferenceIdeal.RefValue.proj2 _ _ _ _ _ _).symm))

set_option maxHeartbeats 1000000 in
/-- After the host stretch the aggregate over the edges is the reference's: the same gather and scatter-add of the same
    projected features along the same indices. -/
theorem s_agg2 (c : Dev nD) : W6 m ρ c (Proc.devRef .tc main_v38) = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  suffices h : ∀ q, Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = q → W6 m ρ c (Proc.devRef .tc main_v38) = q from h _ rfl
  intro q hq
  show StableHlo.after hostOps3 (W5 m ρ c) (Proc.devRef .tc main_v38) = q
  after_results
  rw [s_proj2 m ρ c, (kept5 m ρ c).a1, (kept5 m ρ c).a2]
  exact hq

/-- The bias vector regarded as one row by the host stretch, read back as a vector, is the bias as launched. -/
theorem s_bias2 (c : Dev nD) : rowVec (W6 m ρ c (Proc.devRef .tc main_v39)) = (m ((c.tc : Thread nD τ).loc main_arg6)) := by
  show rowVec (StableHlo.after hostOps3 (W5 m ρ c) (Proc.devRef .tc main_v39)) = _
  after_results
  show rowVec (shapeCast S1x64 (W5 m ρ c (Proc.devRef .tc main_arg6)) shapeCasts_S64_S1x64) = _
  rw [(kept5 m ρ c).a6]
  exact rowVec_shapeCast _ _

/-- After the combination region the layer's output is the reference's. -/
theorem s_comb2 (c : Dev nD) : W7 m ρ c (Proc.devRef .tc main_v40) = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W7_arr m ρ c 3).trans ((Cert.KernelIdeal.Layer2Comb.final (V6 m ρ) c).trans (by
    show scaledPlusMax (W6 m ρ c (Proc.devRef .tc main_v38)) (W6 m ρ c (Proc.devRef .tc main_v14)) (rowVec (W6 m ρ c (Proc.devRef .tc main_v39))) (Scalar.ofBits (F := Ideal) .f32 0x00000000#32) = _
    rw [s_agg2 m ρ c, (kept6 m ρ c).nd, s_bias2 m ρ c]
    exact (Cert.ReferenceIdeal.RefValue.comb2 _ _ _ _ _ _ _).symm))

/-! ## Layer 3 -/

/-- After the projection region the projected features are the reference's. -/
theorem s_proj3 (c : Dev nD) : W8 m ρ c (Proc.devRef .tc main_v41) = Cert.ReferenceIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W8_arr m ρ c 3).trans ((Cert.KernelIdeal.Layer3Proj.final (V7 m ρ) c).trans (by
    show scaledProd (W7 m ρ c (Proc.devRef .tc main_v40)) (W7 m ρ c (Proc.devRef .tc main_v12)) (W7 m ρ c (Proc.devRef .tc main_arg7)) = _
    rw [s_comb2 m ρ c, (kept7 m ρ c).ns, (kept7 m ρ c).a7]
    exact (Cert.ReferenceIdeal.RefValue.proj3 _ _ _ _ _ _ _ _).symm))

set_option maxHeartbeats 1000000 in
/-- After the host stretch the aggregate over the edges is the reference's: the same gather and scatter-add of the same
    projected features along the same indices. -/
theorem s_agg3 (c : Dev nD) : W9 m ρ c (Proc.devRef .tc main_v51) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  suffices h : ∀ q, Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = q → W9 m ρ c (Proc.devRef .tc main_v51) = q from h _ rfl
  intro q hq
  show StableHlo.after hostOps5 (W8 m ρ c) (Proc.devRef .tc main_v51) = q
  after_results
  rw [s_proj3 m ρ c, (kept8 m ρ c).a1, (kept8 m ρ c).a2]
  exact hq

/-- The bias vector regarded as one row by the host stretch, read back as a vector, is the bias as launched. -/
theorem s_bias3 (c : Dev nD) : rowVec (W9 m ρ c (Proc.devRef .tc main_v52)) = (m ((c.tc : Thread nD τ).loc main_arg8)) := by
  show rowVec (StableHlo.after hostOps5 (W8 m ρ c) (Proc.devRef .tc main_v52)) = _
  after_results
  show rowVec (shapeCast S1x16 (W8 m ρ c (Proc.devRef .tc main_arg8)) shapeCasts_S16_S1x16) = _
  rw [(kept8 m ρ c).a8]
  exact rowVec_shapeCast _ _

/-- After the combination region the layer's output is the reference's. -/
theorem s_comb3 (c : Dev nD) : W10 m ρ c (Proc.devRef .tc main_v53) = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W10_arr m ρ c 3).trans ((Cert.KernelIdeal.Layer3Comb.final (V9 m ρ) c).trans (by
    show scaledPlusMax (W9 m ρ c (Proc.devRef .tc main_v51)) (W9 m ρ c (Proc.devRef .tc main_v14)) (rowVec (W9 m ρ c (Proc.devRef .tc main_v52))) (Scalar.ofBits (F := Ideal) .f32 0x00000000#32) = _
    rw [s_agg3 m ρ c, (kept9 m ρ c).nd, s_bias3 m ρ c]
    exact (Cert.ReferenceIdeal.RefValue.comb3 _ _ _ _ _ _ _ _ _).symm))

/-! ## Layer 4 -/

/-- After the projection region the projected features are the reference's. -/
theorem s_proj4 (c : Dev nD) : W11 m ρ c (Proc.devRef .tc main_v54) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W11_arr m ρ c 3).trans ((Cert.KernelIdeal.Layer4Proj.final (V10 m ρ) c).trans (by
    show scaledProd (W10 m ρ c (Proc.devRef .tc main_v53)) (W10 m ρ c (Proc.devRef .tc main_v12)) (W10 m ρ c (Proc.devRef .tc main_arg9)) = _
    rw [s_comb3 m ρ c, (kept10 m ρ c).ns, (kept10 m ρ c).a9]
    exact (Cert.ReferenceIdeal.RefValue.proj4 _ _ _ _ _ _ _ _ _ _).symm))

set_option maxHeartbeats 1000000 in
/-- After the host stretch the aggregate over the edges is the reference's: the same gather and scatter-add of the same
    projected features along the same indices. -/
theorem s_agg4 (c : Dev nD) : W12 m ρ c (Proc.devRef .tc main_v64) = Cert.ReferenceIdeal.Read.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  suffices h : ∀ q, Cert.ReferenceIdeal.Read.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = q → W12 m ρ c (Proc.devRef .tc main_v64) = q from h _ rfl
  intro q hq
  show StableHlo.after hostOps7 (W11 m ρ c) (Proc.devRef .tc main_v64) = q
  after_results
  rw [s_proj4 m ρ c, (kept11 m ρ c).a1, (kept11 m ρ c).a2]
  exact hq

/-- The bias vector regarded as one row by the host stretch, read back as a vector, is the bias as launched. -/
theorem s_bias4 (c : Dev nD) : rowVec (W12 m ρ c (Proc.devRef .tc main_v65)) = (m ((c.tc : Thread nD τ).loc main_arg10)) := by
  show rowVec (StableHlo.after hostOps7 (W11 m ρ c) (Proc.devRef .tc main_v65)) = _
  after_results
  show rowVec (shapeCast S1x40 (W11 m ρ c (Proc.devRef .tc main_arg10)) shapeCasts_S40_S1x40) = _
  rw [(kept11 m ρ c).a10]
  exact rowVec_shapeCast _ _

/-- After the combination region the layer's output is the reference's. -/
theorem s_comb4 (c : Dev nD) : W13 m ρ c (Proc.devRef .tc main_v66) = Cert.ReferenceIdeal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W13_arr m ρ c 3).trans ((Cert.KernelIdeal.Layer4Comb.final (V12 m ρ) c).trans (by
    show scaledPlus (W12 m ρ c (Proc.devRef .tc main_v64)) (W12 m ρ c (Proc.devRef .tc main_v14)) (rowVec (W12 m ρ c (Proc.devRef .tc main_v65))) = _
    rw [s_agg4 m ρ c, (kept12 m ρ c).nd, s_bias4 m ρ c]
    exact (Cert.ReferenceIdeal.RefValue.comb4 _ _ _ _ _ _ _ _ _ _ _).symm))

end Cert.KernelIdeal.Fold

end
-- ==== Proof.lean ====
/-
  A four-layer graph convolution with symmetric degree normalisation, over 100000 nodes and 1600000 edges: the kernel
  against its plain reference, on the extended reals.

  Both programs first count out- and in-degrees by a scatter-add of ones along the source and the destination indices,
  clamp them at one and take reciprocal square roots: two columns `ns`, `nd`. Then, four times, with `h` the layer's
  input, `W` its weights and `b` its bias,

      p   = (rows of h scaled by ns) · W
      agg = the rows of p gathered along the source indices, added up along the destination indices
      h'  = max (rows of agg scaled by nd + b) 0          (the last layer has no floor)

  The reference does every step on the host. The kernel does the first and the third step of each layer in a pipelined
  region that walks the 100000 rows in 50 blocks of 2000, and the degree columns and the aggregation on the host with
  the reference's own operations. In a region the product is taken on the matrix unit with both operands narrowed to
  bf16, which on the extended reals changes nothing; every dense step acts on each row by itself, so a block of rows
  of the step's result is the step applied to the block of rows, and the 50 blocks tile the result. Hence each region
  leaves in its result array the whole-array step of the arrays it finds, and stage by stage the kernel's arrays are
  the reference's stages of the same arguments. No law beyond rewriting the same sums and products is used, so
  the finiteness of the inputs is never opened.

  The modules: LibScaledRows (the dense steps as whole-array functions, their two spellings, rows of a block), with
  LibPlainDot, LibMatProduct, LibRowBlocks, LibRowBias, LibColumnBroadcast, LibHostColumn, LibHostRow under it;
  Layer⟨n⟩Proj / Layer⟨n⟩Comb (each region's result array); RefStages (the reference's dense steps); KernelRun (the
  kernel's run with its result named); FoldKept and FoldValue (the kernel's buffers along its run); and here the five
  claims.
-/
import proofs.«162165_j5927054869163_1_alg».proof.Defs
import proofs.«162165_j5927054869163_1_alg».proof.Proof.Gen.Kernel
import proofs.«162165_j5927054869163_1_alg».proof.Proof.Gen.Kernel.Skeleton
import proofs.«162165_j5927054869163_1_alg».proof.Proof.Gen.Kernel.Launch
import proofs.«162165_j5927054869163_1_alg».proof.Proof.Gen.Kernel.Points
import proofs.«162165_j5927054869163_1_alg».proof.Proof.Gen.Kernel.Frame
import proofs.«162165_j5927054869163_1_alg».proof.Proof.Gen.KernelIdeal
import proofs.«162165_j5927054869163_1_alg».proof.Proof.Gen.KernelIdeal.Skeleton
import proofs.«162165_j5927054869163_1_alg».proof.Proof.Gen.KernelIdeal.Launch
import proofs.«162165_j5927054869163_1_alg».proof.Proof.Gen.KernelIdeal.Points
import proofs.«162165_j5927054869163_1_alg».proof.Proof.Gen.KernelIdeal.Frame
import proofs.«162165_j5927054869163_1_alg».proof.Proof.Gen.ReferenceIdeal
import proofs.«162165_j5927054869163_1_alg».proof.Proof.Gen.ReferenceIdeal.Run
import proofs.«162165_j5927054869163_1_alg».proof.Proof.Gen.ReferenceIdeal.Read
import proofs.«162165_j5927054869163_1_alg».proof.Proof.Gen.Pre_finite_inputs
import proofs.«162165_j5927054869163_1_alg».proof.Proof.KernelRun
import proofs.«162165_j5927054869163_1_alg».proof.Proof.FoldValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run, the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the same result: the reference's last
    stage of the arguments. The kernel's result buffer holds it by the fold of its run; the reference's by its own run,
    the arguments' agreement rewritten. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.s_comb4 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v89_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
